-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_v5)) (v2 : (c : Dev Cert.KernelIdeal.nD) → Buf (Elt Ideal) ((c.tc : Thread Cert.KernelIdeal.nD Cert.KernelIdeal.τ).loc Cert.KernelIdeal.main_arg2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_v5) = v1 c
          ∧ r.2.mem ((c.tc : Thread Cert.KernelIdeal.nD Cert.KernelIdeal.τ).loc Cert.KernelIdeal.main_arg2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_v107) = v1 c
          ∧ r.2.mem ((c.tc : Thread Cert.ReferenceIdeal.nD Cert.ReferenceIdeal.τ).loc Cert.ReferenceIdeal.main_arg2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4194304x2 : Shape := ⟨2, ![4194304, 2]⟩
abbrev S_ : Shape := ⟨0, ![]⟩

class Facts : Prop where
  bcast_S_S4194304x2 : S_.BroadcastsInDim S4194304x2 (![] : Fin 0 → Fin S4194304x2.rank)
  reducesTo_S4194304x2_S_d0_1 : S4194304x2.ReducesTo [0, 1] S_
  h_S_ : 0 < S_.numel
  reducesTo_S_S_d : S_.ReducesTo [] S_

variable [Facts]

def fn {F : FTy → Type} [FloatOps F] (main_arg0 : FVec F S4194304x2 .f32) (main_arg1 : FVec F S4194304x2 .f32) (main_arg2 : FVec F S_ .f32) : IVec S_ 1 :=
  let main_v0 : FVec F S4194304x2 .f32 := Host.absf main_arg0
  let main_cst : FVec F S_ .f32 := constant S_ .f32 0x7F800000#32
  let main_v1 : FVec F S4194304x2 .f32 := broadcastInDim S4194304x2 ![] bcast_S_S4194304x2 main_cst
  let main_v2 : IVec S4194304x2 1 := cmpf .olt main_v0 main_v1
  let main_c : IVec S_ 1 := constantI S_ 1 1#1
  let main_v3 : IVec S_ 1 := (fun x v => Host.reduce IntOp.andi x v reducesTo_S4194304x2_S_d0_1 h_S_) main_v2 main_c
  let main_v4 : FVec F S4194304x2 .f32 := Host.absf main_arg1
  let main_cst_0 : FVec F S_ .f32 := constant S_ .f32 0x7F800000#32
  let main_v5 : FVec F S4194304x2 .f32 := broadcastInDim S4194304x2 ![] bcast_S_S4194304x2 main_cst_0
  let main_v6 : IVec S4194304x2 1 := cmpf .olt main_v4 main_v5
  let main_c_1 : IVec S_ 1 := constantI S_ 1 1#1
  let main_v7 : IVec S_ 1 := (fun x v => Host.reduce IntOp.andi x v reducesTo_S4194304x2_S_d0_1 h_S_) main_v6 main_c_1
  let main_v8 : IVec S_ 1 := andi main_v3 main_v7
  let main_v9 : FVec F S_ .f32 := Host.absf main_arg2
  let main_cst_2 : FVec F S_ .f32 := constant S_ .f32 0x7F800000#32
  let main_v10 : IVec S_ 1 := cmpf .olt main_v9 main_cst_2
  let main_c_3 : IVec S_ 1 := constantI S_ 1 1#1
  let main_v11 : IVec S_ 1 := (fun x v => Host.reduce IntOp.andi x v reducesTo_S_S_d h_S_) main_v10 main_c_3
  let main_v12 : IVec S_ 1 := andi main_v8 main_v11
  main_v12
-- ==== Kernel.lean ====
abbrev S4194304x2 : Shape := ⟨2, ![4194304, 2]⟩
abbrev S_ : Shape := ⟨0, ![]⟩
abbrev S2x4194304 : Shape := ⟨2, ![2, 4194304]⟩
abbrev S1x1 : Shape := ⟨2, ![1, 1]⟩
abbrev S2x32768 : Shape := ⟨2, ![2, 32768]⟩
abbrev S1x32768 : Shape := ⟨2, ![1, 32768]⟩

abbrev nBuf : Space → Nat
  | .hbm => 10
  | .vmem => 9
  | .smem => 0
  | _ => 0

abbrev bufTy : (tb : Table) → Fin (tcTables nBuf tb) → BufTy
  | .hbm, ⟨0, _⟩ => ⟨S4194304x2, .f32⟩
  | .hbm, ⟨1, _⟩ => ⟨S4194304x2, .f32⟩
  | .hbm, ⟨2, _⟩ => ⟨S_, .f32⟩
  | .hbm, ⟨3, _⟩ => ⟨S2x4194304, .f32⟩
  | .hbm, ⟨4, _⟩ => ⟨S2x4194304, .f32⟩
  | .hbm, ⟨5, _⟩ => ⟨S1x1, .f32⟩
  | .hbm, ⟨6, _⟩ => ⟨S2x4194304, .f32⟩
  | .hbm, ⟨7, _⟩ => ⟨S2x4194304, .f32⟩
  | .hbm, ⟨8, _⟩ => ⟨S4194304x2, .f32⟩
  | .hbm, ⟨9, _⟩ => ⟨S4194304x2, .f32⟩
  | .local _ .vmem, ⟨0, _⟩ => ⟨S2x32768, .f32⟩
  | .local _ .vmem, ⟨1, _⟩ => ⟨S2x32768, .f32⟩
  | .local _ .vmem, ⟨2, _⟩ => ⟨S2x32768, .f32⟩
  | .local _ .vmem, ⟨3, _⟩ => ⟨S2x32768, .f32⟩
  | .local _ .vmem, ⟨4, _⟩ => ⟨S1x1, .f32⟩
  | .local _ .vmem, ⟨5, _⟩ => ⟨S2x32768, .f32⟩
  | .local _ .vmem, ⟨6, _⟩ => ⟨S2x32768, .f32⟩
  | .local _ .vmem, ⟨7, _⟩ => ⟨S2x32768, .f32⟩
  | .local _ .vmem, ⟨8, _⟩ => ⟨S2x32768, .f32⟩
  | _, _ => ⟨S4194304x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2x32768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x32768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2x32768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2x32768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  transposes_S4194304x2_S2x4194304_1_0 : S4194304x2.Transposes [1, 0] S2x4194304
  shapeCasts_S_S1x1 : S_.ShapeCasts S1x1
  inb_S2x32768_S1x32768_0_0 : ∀ a, (![0, 0] : Fin 2 → Nat) a + S1x32768.size a ≤ S2x32768.size a
  h_S1x32768 : 0 < S1x32768.numel
  shapeCasts_S1x32768_S1x32768 : S1x32768.ShapeCasts S1x32768
  inb_S2x32768_S1x32768_1_0 : ∀ a, (![1, 0] : Fin 2 → Nat) a + S1x32768.size a ≤ S2x32768.size a
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  transposes_S2x4194304_S4194304x2_1_0 : S2x4194304.Transposes [1, 0] S4194304x2
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x32768.size a ≤ S2x4194304.size a
  hwx0_0 : ∀ i : grid0.Coords, EltTy.bits .f32 = 32 ∨ (Rect.block (s := S2x4194304) S2x32768.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2x32768.size a ≤ S2x4194304.size a
  hwx0_1 : ∀ i : grid0.Coords, EltTy.bits .f32 = 32 ∨ (Rect.block (s := S2x4194304) S2x32768.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2x32768.size a ≤ S2x4194304.size a
  hwx0_3 : ∀ i : grid0.Coords, EltTy.bits .f32 = 32 ∨ (Rect.block (s := S2x4194304) S2x32768.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2x32768.size a ≤ S2x4194304.size a
  hwx0_4 : ∀ i : grid0.Coords, EltTy.bits .f32 = 32 ∨ (Rect.block (s := S2x4194304) S2x32768.size (cc0_transform_4 i) (hinb0_4 i)).WholeWords (EltTy.packing .f32)

variable [Facts₀]

abbrev win0_0 : Pipeline.Window sig grid0 :=
  Pipeline.Window.ofSpec (Memref.whole main_v0) S2x32768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S2x32768.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3_0) S2x32768.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3_1) S2x32768.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4194304x2 : Shape := ⟨2, ![4194304, 2]⟩
abbrev S_ : Shape := ⟨0, ![]⟩
abbrev S4194304x1 : Shape := ⟨2, ![4194304, 1]⟩
abbrev S4194304 : Shape := ⟨1, ![4194304]⟩

abbrev nBuf : Space → Nat
  | .hbm => 162
  | .vmem => 0
  | .smem => 0
  | _ => 0

abbrev hbmTy0_0 (i : Nat) : BufTy := match i % 128 with
  | 0 => ⟨S4194304x2, .f32⟩
  | 1 => ⟨S4194304x2, .f32⟩
  | 2 => ⟨S_, .f32⟩
  | 3 => ⟨S4194304x1, .f32⟩
  | 4 => ⟨S4194304, .f32⟩
  | 5 => ⟨S4194304x1, .f32⟩
  | 6 => ⟨S4194304, .f32⟩
  | 7 => ⟨S4194304x1, .f32⟩
  | 8 => ⟨S4194304, .f32⟩
  | 9 => ⟨S4194304x1, .f32⟩
  | 10 => ⟨S4194304, .f32⟩
  | 11 => ⟨S_, .f32⟩
  | 12 => ⟨S4194304, .f32⟩
  | 13 => ⟨S4194304, .f32⟩
  | 14 => ⟨S4194304, .f32⟩
  | 15 => ⟨S_, .f32⟩
  | 16 => ⟨S4194304, .f32⟩
  | 17 => ⟨S4194304, .f32⟩
  | 18 => ⟨S4194304, .f32⟩
  | 19 => ⟨S4194304, .f32⟩
  | 20 => ⟨S_, .f32⟩
  | 21 => ⟨S4194304, .f32⟩
  | 22 => ⟨S4194304, .f32⟩
  | 23 => ⟨S4194304, .f32⟩
  | 24 => ⟨S4194304, .f32⟩
  | 25 => ⟨S4194304, .f32⟩
  | 26 => ⟨S4194304, .f32⟩
  | 27 => ⟨S4194304, .f32⟩
  | 28 => ⟨S_, .f32⟩
  | 29 => ⟨S4194304, .f32⟩
  | 30 => ⟨S4194304, .i1⟩
  | 31 => ⟨S_, .f32⟩
  | 32 => ⟨S_, .f32⟩
  | 33 => ⟨S4194304, .f32⟩
  | 34 => ⟨S4194304, .f32⟩
  | 35 => ⟨S4194304, .f32⟩
  | 36 => ⟨S_, .f32⟩
  | 37 => ⟨S4194304, .f32⟩
  | 38 => ⟨S4194304, .f32⟩
  | 39 => ⟨S4194304, .f32⟩
  | 40 => ⟨S4194304, .f32⟩
  | 41 => ⟨S_, .f32⟩
  | 42 => ⟨S4194304, .f32⟩
  | 43 => ⟨S4194304, .f32⟩
  | 44 => ⟨S4194304, .f32⟩
  | 45 => ⟨S_, .f32⟩
  | 46 => ⟨S4194304, .f32⟩
  | 47 => ⟨S4194304, .i1⟩
  | 48 => ⟨S_, .f32⟩
  | 49 => ⟨S_, .f32⟩
  | 50 => ⟨S4194304, .f32⟩
  | 51 => ⟨S4194304, .f32⟩
  | 52 => ⟨S4194304, .f32⟩
  | 53 => ⟨S4194304, .f32⟩
  | 54 => ⟨S4194304, .f32⟩
  | 55 => ⟨S4194304, .f32⟩
  | 56 => ⟨S_, .f32⟩
  | 57 => ⟨S4194304, .f32⟩
  | 58 => ⟨S4194304, .f32⟩
  | 59 => ⟨S4194304, .f32⟩
  | 60 => ⟨S_, .f32⟩
  | 61 => ⟨S4194304, .f32⟩
  | 62 => ⟨S4194304, .i1⟩
  | 63 => ⟨S_, .f32⟩
  | 64 => ⟨S_, .f32⟩
  | 65 => ⟨S4194304, .f32⟩
  | 66 => ⟨S4194304, .f32⟩
  | 67 => ⟨S4194304, .f32⟩
  | 68 => ⟨S4194304, .f32⟩
  | 69 => ⟨S_, .f32⟩
  | 70 => ⟨S4194304, .f32⟩
  | 71 => ⟨S4194304, .i1⟩
  | 72 => ⟨S_, .f32⟩
  | 73 => ⟨S_, .f32⟩
  | 74 => ⟨S4194304, .f32⟩
  | 75 => ⟨S4194304, .f32⟩
  | 76 => ⟨S_, .f32⟩
  | 77 => ⟨S4194304, .f32⟩
  | 78 => ⟨S4194304, .i1⟩
  | 79 => ⟨S_, .f32⟩
  | 80 => ⟨S_, .f32⟩
  | 81 => ⟨S4194304, .f32⟩
  | 82 => ⟨S4194304, .f32⟩
  | 83 => ⟨S4194304, .f32⟩
  | 84 => ⟨S4194304, .f32⟩
  | 85 => ⟨S_, .f32⟩
  | 86 => ⟨S4194304, .f32⟩
  | 87 => ⟨S4194304, .i1⟩
  | 88 => ⟨S_, .f32⟩
  | 89 => ⟨S_, .f32⟩
  | 90 => ⟨S4194304, .f32⟩
  | 91 => ⟨S4194304, .f32⟩
  | 92 => ⟨S4194304, .f32⟩
  | 93 => ⟨S4194304, .f32⟩
  | 94 => ⟨S4194304, .f32⟩
  | 95 => ⟨S4194304x1, .f32⟩
  | 96 => ⟨S4194304x2, .f32⟩
  | 97 => ⟨S4194304x2, .f32⟩
  | 98 => ⟨S4194304x2, .f32⟩
  | 99 => ⟨S4194304x1, .f32⟩
  | 100 => ⟨S4194304, .f32⟩
  | 101 => ⟨S_, .f32⟩
  | 102 => ⟨S4194304, .f32⟩
  | 103 => ⟨S_, .f32⟩
  | 104 => ⟨S4194304, .f32⟩
  | 105 => ⟨S4194304, .f32⟩
  | 106 => ⟨S4194304x1, .f32⟩
  | 107 => ⟨S4194304x1, .f32⟩
  | 108 => ⟨S4194304x2, .f32⟩
  | 109 => ⟨S4194304x2, .f32⟩
  | 110 => ⟨S_, .f32⟩
  | 111 => ⟨S4194304, .f32⟩
  | 112 => ⟨S4194304x1, .f32⟩
  | 113 => ⟨S4194304x1, .f32⟩
  | 114 => ⟨S4194304x2, .f32⟩
  | 115 => ⟨S4194304x2, .f32⟩
  | 116 => ⟨S4194304x2, .f32⟩
  | 117 => ⟨S_, .f32⟩
  | 118 => ⟨S4194304, .f32⟩
  | 119 => ⟨S_, .f32⟩
  | 120 => ⟨S4194304, .f32⟩
  | 121 => ⟨S4194304, .i1⟩
  | 122 => ⟨S4194304x1, .i1⟩
  | 123 => ⟨S4194304x2, .f32⟩
  | 124 => ⟨S4194304x2, .i1⟩
  | 125 => ⟨S4194304x2, .f32⟩
  | 126 => ⟨S4194304x2, .f32⟩
  | 127 => ⟨S_, .f32⟩
  | _ => ⟨S4194304x2, .f32⟩

abbrev hbmTy0_1 (i : Nat) : BufTy := match i % 128 with
  | 0 => ⟨S4194304, .f32⟩
  | 1 => ⟨S4194304x1, .f32⟩
  | 2 => ⟨S4194304x1, .f32⟩
  | 3 => ⟨S4194304x2, .f32⟩
  | 4 => ⟨S4194304x2, .f32⟩
  | 5 => ⟨S4194304x2, .f32⟩
  | 6 => ⟨S_, .f32⟩
  | 7 => ⟨S4194304, .f32⟩
  | 8 => ⟨S4194304, .f32⟩
  | 9 => ⟨S4194304, .f32⟩
  | 10 => ⟨S_, .f32⟩
  | 11 => ⟨S4194304, .f32⟩
  | 12 => ⟨S4194304, .f32⟩
  | 13 => ⟨S_, .f32⟩
  | 14 => ⟨S4194304, .f32⟩
  | 15 => ⟨S4194304, .f32⟩
  | 16 => ⟨S_, .f32⟩
  | 17 => ⟨S4194304, .f32⟩
  | 18 => ⟨S4194304, .f32⟩
  | 19 => ⟨S_, .f32⟩
  | 20 => ⟨S4194304, .f32⟩
  | 21 => ⟨S4194304, .f32⟩
  | 22 => ⟨S_, .f32⟩
  | 23 => ⟨S4194304x2, .f32⟩
  | 24 => ⟨S4194304x2, .f32⟩
  | 25 => ⟨S_, .f32⟩
  | 26 => ⟨S4194304, .f32⟩
  | 27 => ⟨S4194304, .f32⟩
  | 28 => ⟨S4194304, .f32⟩
  | 29 => ⟨S4194304, .f32⟩
  | 30 => ⟨S4194304x1, .f32⟩
  | 31 => ⟨S4194304x2, .f32⟩
  | 32 => ⟨S4194304x2, .f32⟩
  | 33 => ⟨S4194304x2, .f32⟩
  | _ => ⟨S4194304x2, .f32⟩

abbrev hbmTy (i : Nat) : BufTy := match i / 128 with
  | 0 => hbmTy0_0 i
  | 1 => hbmTy0_1 i
  | _ => ⟨S4194304x2, .f32⟩

abbrev bufTy : (tb : Table) → Fin (tcTables nBuf tb) → BufTy
  | .hbm, ⟨i, _⟩ => hbmTy i
  | _, _ => ⟨S4194304x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_1 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_2 : Ref sig .tc := ⟨.hbm, 28, rfl⟩
abbrev main_v22 : Ref sig .tc := ⟨.hbm, 29, rfl⟩
abbrev main_v23 : Ref sig .tc := ⟨.hbm, 30, rfl⟩
abbrev main_cst_3 : Ref sig .tc := ⟨.hbm, 31, rfl⟩
abbrev main_call0_v0 : Ref sig .tc := ⟨.hbm, 32, rfl⟩
abbrev main_call0_v1 : Ref sig .tc := ⟨.hbm, 33, rfl⟩
abbrev main_v24 : Ref sig .tc := ⟨.hbm, 34, rfl⟩
abbrev main_v25 : Ref sig .tc := ⟨.hbm, 35, rfl⟩
abbrev main_cst_4 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_5 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_cst_7 : Ref sig .tc := ⟨.hbm, 48, rfl⟩
abbrev main_cst_8 : Ref sig .tc := ⟨.hbm, 49, rfl⟩
abbrev main_call1_v0 : Ref sig .tc := ⟨.hbm, 50, rfl⟩
abbrev main_call1_v1 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_9 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_10 : Ref sig .tc := ⟨.hbm, 60, rfl⟩
abbrev main_v42 : Ref sig .tc := ⟨.hbm, 61, rfl⟩
abbrev main_v43 : Ref sig .tc := ⟨.hbm, 62, rfl⟩
abbrev main_cst_11 : Ref sig .tc := ⟨.hbm, 63, rfl⟩
abbrev main_call2_v0 : Ref sig .tc := ⟨.hbm, 64, rfl⟩
abbrev main_call2_v1 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_cst_12 : Ref sig .tc := ⟨.hbm, 69, rfl⟩
abbrev main_v47 : Ref sig .tc := ⟨.hbm, 70, rfl⟩
abbrev main_v48 : Ref sig .tc := ⟨.hbm, 71, rfl⟩
abbrev main_cst_13 : Ref sig .tc := ⟨.hbm, 72, rfl⟩
abbrev main_call3_v0 : Ref sig .tc := ⟨.hbm, 73, rfl⟩
abbrev main_call3_v1 : Ref sig .tc := ⟨.hbm, 74, rfl⟩
abbrev main_v49 : Ref sig .tc := ⟨.hbm, 75, rfl⟩
abbrev main_cst_14 : Ref sig .tc := ⟨.hbm, 76, rfl⟩
abbrev main_v50 : Ref sig .tc := ⟨.hbm, 77, rfl⟩
abbrev main_v51 : Ref sig .tc := ⟨.hbm, 78, rfl⟩
abbrev main_cst_15 : Ref sig .tc := ⟨.hbm, 79, rfl⟩
abbrev main_call4_v0 : Ref sig .tc := ⟨.hbm, 80, rfl⟩
abbrev main_call4_v1 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_cst_16 : Ref sig .tc := ⟨.hbm, 85, rfl⟩
abbrev main_v55 : Ref sig .tc := ⟨.hbm, 86, rfl⟩
abbrev main_v56 : Ref sig .tc := ⟨.hbm, 87, rfl⟩
abbrev main_cst_17 : Ref sig .tc := ⟨.hbm, 88, rfl⟩
abbrev main_call5_v0 : Ref sig .tc := ⟨.hbm, 89, rfl⟩
abbrev main_call5_v1 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_cst_18 : Ref sig .tc := ⟨.hbm, 101, rfl⟩
abbrev main_v67 : Ref sig .tc := ⟨.hbm, 102, rfl⟩
abbrev main_cst_19 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_call7_v0 : Ref sig .tc := ⟨.hbm, 109, rfl⟩
abbrev main_call7_cst : Ref sig .tc := ⟨.hbm, 110, rfl⟩
abbrev main_call7_v1 : Ref sig .tc := ⟨.hbm, 111, rfl⟩
abbrev main_call7_v2 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_cst_20 : Ref sig .tc := ⟨.hbm, 117, rfl⟩
abbrev main_v77 : Ref sig .tc := ⟨.hbm, 118, rfl⟩
abbrev main_cst_21 : Ref sig .tc := ⟨.hbm, 119, rfl⟩
abbrev main_v78 : Ref sig .tc := ⟨.hbm, 120, rfl⟩
abbrev main_v79 : Ref sig .tc := ⟨.hbm, 121, rfl⟩
abbrev main_v80 : Ref sig .tc := ⟨.hbm, 122, rfl⟩
abbrev main_v81 : Ref sig .tc := ⟨.hbm, 123, rfl⟩
abbrev main_call8_v0 : Ref sig .tc := ⟨.hbm, 124, rfl⟩
abbrev main_v82 : Ref sig .tc := ⟨.hbm, 125, rfl⟩
abbrev main_call9_v0 : Ref sig .tc := ⟨.hbm, 126, rfl⟩
abbrev main_call9_cst : Ref sig .tc := ⟨.hbm, 127, rfl⟩
abbrev main_call9_v1 : Ref sig .tc := ⟨.hbm, 128, rfl⟩
abbrev main_call9_v2 : Ref sig .tc := ⟨.hbm, 129, rfl⟩
abbrev main_v83 : Ref sig .tc := ⟨.hbm, 130, rfl⟩
abbrev main_v84 : Ref sig .tc := ⟨.hbm, 131, rfl⟩
abbrev main_v85 : Ref sig .tc := ⟨.hbm, 132, rfl⟩
abbrev main_v86 : Ref sig .tc := ⟨.hbm, 133, rfl⟩
abbrev main_cst_22 : Ref sig .tc := ⟨.hbm, 134, rfl⟩
abbrev main_v87 : Ref sig .tc := ⟨.hbm, 135, rfl⟩
abbrev main_v88 : Ref sig .tc := ⟨.hbm, 136, rfl⟩
abbrev main_v89 : Ref sig .tc := ⟨.hbm, 137, rfl⟩
abbrev main_cst_23 : Ref sig .tc := ⟨.hbm, 138, rfl⟩
abbrev main_v90 : Ref sig .tc := ⟨.hbm, 139, rfl⟩
abbrev main_v91 : Ref sig .tc := ⟨.hbm, 140, rfl⟩
abbrev main_cst_24 : Ref sig .tc := ⟨.hbm, 141, rfl⟩
abbrev main_v92 : Ref sig .tc := ⟨.hbm, 142, rfl⟩
abbrev main_v93 : Ref sig .tc := ⟨.hbm, 143, rfl⟩
abbrev main_cst_25 : Ref sig .tc := ⟨.hbm, 144, rfl⟩
abbrev main_v94 : Ref sig .tc := ⟨.hbm, 145, rfl⟩
abbrev main_v95 : Ref sig .tc := ⟨.hbm, 146, rfl⟩
abbrev main_cst_26 : Ref sig .tc := ⟨.hbm, 147, rfl⟩
abbrev main_v96 : Ref sig .tc := ⟨.hbm, 148, rfl⟩
abbrev main_v97 : Ref sig .tc := ⟨.hbm, 149, rfl⟩
abbrev main_cst_27 : Ref sig .tc := ⟨.hbm, 150, rfl⟩
abbrev main_v98 : Ref sig .tc := ⟨.hbm, 151, rfl⟩
abbrev main_v99 : Ref sig .tc := ⟨.hbm, 152, rfl⟩
abbrev main_cst_28 : Ref sig .tc := ⟨.hbm, 153, rfl⟩
abbrev main_v100 : Ref sig .tc := ⟨.hbm, 154, rfl⟩
abbrev main_v101 : Ref sig .tc := ⟨.hbm, 155, rfl⟩
abbrev main_v102 : Ref sig .tc := ⟨.hbm, 156, rfl⟩
abbrev main_v103 : Ref sig .tc := ⟨.hbm, 157, rfl⟩
abbrev main_v104 : Ref sig .tc := ⟨.hbm, 158, rfl⟩
abbrev main_v105 : Ref sig .tc := ⟨.hbm, 159, rfl⟩
abbrev main_v106 : Ref sig .tc := ⟨.hbm, 160, rfl⟩
abbrev main_v107 : Ref sig .tc := ⟨.hbm, 161, rfl⟩

abbrev nD : Nat := 1
abbrev τ : Topo := Topo.v7x

variable {F : FTy → Type} [FloatOps F]

class Facts₀ : Prop where
  slices_S4194304x2_S4194304x1_0_0 : S4194304x2.Slices ![0, 0] S4194304x1
  shapeCasts_S4194304x1_S4194304 : S4194304x1.ShapeCasts S4194304
  slices_S4194304x2_S4194304x1_0_1 : S4194304x2.Slices ![0, 1] S4194304x1
  bcast_S_S4194304 : S_.BroadcastsInDim S4194304 (![] : Fin 0 → Fin S4194304.rank)
  bcast_S4194304_S4194304x1_0 : S4194304.BroadcastsInDim S4194304x1 (![0] : Fin 1 → Fin S4194304x1.rank)
  bcast_S4194304x1_S4194304x2_0_1 : S4194304x1.BroadcastsInDim S4194304x2 (![0, 1] : Fin 2 → Fin S4194304x2.rank)
  concatenates_S4194304x1_S4194304x1_S4194304x2_d1 : Shape.Concatenates [S4194304x1, S4194304x1] S4194304x2 1
  reducesTo_S4194304x2_S4194304_d1 : S4194304x2.ReducesTo [1] S4194304
  h_S_ : 0 < S_.numel
  bcast_S_S4194304x2 : S_.BroadcastsInDim S4194304x2 (![] : Fin 0 → Fin S4194304x2.rank)

variable [Facts₀]

class Facts : Prop extends Facts₀ where

variable [Facts]
-- ==== Proof.Ray.lean ====
/-
  One ray against the parabolic surface x = a·y² + p, and its refraction by Snell's law — the function both
  programs compute, ray by ray.

  A ray has an origin (ox, oy) and a direction (dx, dy); p is the surface's axial position. Its parameter at the
  surface solves the quadratic  (a·dy²)·t² + (2a·oy·dy − dx)·t + (a·oy² + p − ox) = 0, by the numerically
  stable root formula  q = −½(b + sgn(b)·√max(b² − 4ac, 0)),  t₁ = q / a,  t₂ = c / q,  the smaller positive one
  (a non-positive root replaced by 10³⁰), with guards against a vanishing a (then the linear root −c / b), q and b.
  The hit point is origin + t·direction; the surface normal there is (1, −2a·cy) normalised and turned against
  the ray; the refracted direction is  r·u + (r·cos i − √max(1 − r²(1 − cos² i), 0))·n  for the unit direction u,
  cos i = −n·u and r = n₁/n₂ = 2/3.

  Everything is stated over an arbitrary float instance, in the order and association in which the operations
  are applied, so that it is the same term wherever it is read; the literals are kept as their f32 words.
-/
import Idealize.ShloMosaic.PureOps.Vector

noncomputable section

namespace Cert.Ray

open Idealize.ShloMosaic

variable {F : FTy → Type} [FloatOps F]

/-- An f32 literal by its word. -/
abbrev lit (w : BitVec 32) : F .f32 := FloatOps.ofBits .f32 w

/-! ## The quadratic's coefficients and guards, from the ray -/

/-- a·dy·dy, the leading coefficient (a = 0.01). -/
def quadA (dy : F .f32) : F .f32 :=
  FloatOps.mulf (FloatOps.mulf (lit 0x3C23D70A#32) dy) dy

/-- 2a·oy·dy − dx, the linear coefficient (2a = 0.02). -/
def quadB (oy dx dy : F .f32) : F .f32 :=
  FloatOps.subf (FloatOps.mulf (FloatOps.mulf (lit 0x3CA3D70A#32) oy) dy) dx

/-- a·oy·oy + p − ox, the constant coefficient. -/
def quadC (ox oy p : F .f32) : F .f32 :=
  FloatOps.subf (FloatOps.addf (FloatOps.mulf (FloatOps.mulf (lit 0x3C23D70A#32) oy) oy) p) ox

/-- The quadratic is degenerate: |a·dy²| < 10⁻¹⁰. -/
def flat (dy : F .f32) : BitVec 1 :=
  FloatOps.cmpf .olt (FloatOps.absf (quadA dy)) (lit 0x2EDBE6FF#32)

/-- The leading coefficient, replaced by 1 where the quadratic is degenerate. -/
def safeA (dy : F .f32) : F .f32 :=
  Scalar.select (flat dy) (lit 0x3F800000#32) (quadA dy)

/-- √max(b² − 4ac, 0). -/
def root (ox oy dx dy p : F .f32) : F .f32 :=
  FloatOps.sqrt (FloatOps.maximumf
    (FloatOps.subf (FloatOps.mulf (quadB oy dx dy) (quadB oy dx dy))
      (FloatOps.mulf (FloatOps.mulf (lit 0x40800000#32) (quadA dy)) (quadC ox oy p)))
    (lit 0x00000000#32))

/-- b ≥ 0. -/
def upward (oy dx dy : F .f32) : BitVec 1 :=
  FloatOps.cmpf .oge (quadB oy dx dy) (lit 0x00000000#32)

/-! ## The ray parameter, from the coefficients -/

/-- q = −½(b + sgn(b)·root), the sign read off the test g : b ≥ 0. -/
def stableQ (b r : F .f32) (g : BitVec 1) : F .f32 :=
  FloatOps.mulf (lit 0xBF000000#32)
    (FloatOps.addf b (FloatOps.mulf (Scalar.select g (lit 0x3F800000#32) (lit 0xBF800000#32)) r))

/-- A value of magnitude below 10⁻¹⁰ replaced by 10⁻¹⁰. -/
def guarded (x : F .f32) : F .f32 :=
  Scalar.select (FloatOps.cmpf .olt (FloatOps.absf x) (lit 0x2EDBE6FF#32)) (lit 0x2EDBE6FF#32) x

/-- A non-positive root replaced by 10³⁰. -/
def forward (x : F .f32) : F .f32 :=
  Scalar.select (FloatOps.cmpf .ogt x (lit 0x00000000#32)) x (lit 0x7149F2CA#32)

/-- The parameter of the hit: the linear root −c / b where the quadratic is degenerate (l), else the smaller
    forward root of q / a and c / q. -/
def hitOf (b c : F .f32) (l : BitVec 1) (a r : F .f32) (g : BitVec 1) : F .f32 :=
  Scalar.select l
    (FloatOps.divf (FloatOps.subf (lit 0x00000000#32) c) (guarded b))
    (FloatOps.minimumf (forward (FloatOps.divf (stableQ b r g) a))
      (forward (FloatOps.divf c (guarded (stableQ b r g)))))

/-- The parameter of the hit, from the ray. -/
def hit (ox oy dx dy p : F .f32) : F .f32 :=
  hitOf (quadB oy dx dy) (quadC ox oy p) (flat dy) (safeA dy) (root ox oy dx dy p) (upward oy dx dy)

/-! ## The hit point and the surface normal there -/

/-- One coordinate of origin + t·direction. -/
def along (o v t : F .f32) : F .f32 := FloatOps.addf o (FloatOps.mulf t v)

/-- The hit point's y. -/
def hitY (ox oy dx dy p : F .f32) : F .f32 := along oy dy (hit ox oy dx dy p)

/-- −2a·cy, the unnormalised normal's y (−2a = −0.02); its x is 1. -/
def slope (cy : F .f32) : F .f32 := FloatOps.mulf (lit 0xBCA3D70A#32) cy

/-- √(1·1 + slope²), the normal's length. -/
def normLen (cy : F .f32) : F .f32 :=
  FloatOps.sqrt (FloatOps.addf (FloatOps.mulf (lit 0x3F800000#32) (lit 0x3F800000#32)) (FloatOps.mulf (slope cy) (slope cy)))

/-- The unit normal's x and y. -/
def normX (cy : F .f32) : F .f32 := FloatOps.divf (lit 0x3F800000#32) (normLen cy)
def normY (cy : F .f32) : F .f32 := FloatOps.divf (slope cy) (normLen cy)

/-- The unit normal's coordinate on axis k (0: x, otherwise y). -/
def normAt (k : Nat) (cy : F .f32) : F .f32 := if k = 0 then normX cy else normY cy

theorem normAt_zero (cy : F .f32) : normAt 0 cy = normX cy := if_pos rfl
theorem normAt_one (cy : F .f32) : normAt 1 cy = normY cy := if_neg (by decide)

/-- normal · direction. -/
def dotp (nx ny dx dy : F .f32) : F .f32 := FloatOps.addf (FloatOps.mulf nx dx) (FloatOps.mulf ny dy)

/-! ## Refraction, from the direction, the unit normal and their product -/

/-- A normal's coordinate turned against the ray: negated (as 0 − n) where normal · direction > 0. -/
def facing (n d : F .f32) : F .f32 :=
  Scalar.select (FloatOps.cmpf .ogt d (lit 0x00000000#32)) (FloatOps.subf (lit 0x00000000#32) n) n

/-- √(dx·dx + dy·dy). -/
def dirLen (dx dy : F .f32) : F .f32 := FloatOps.sqrt (FloatOps.addf (FloatOps.mulf dx dx) (FloatOps.mulf dy dy))

/-- One coordinate of the unit direction. -/
def unit (v dx dy : F .f32) : F .f32 := FloatOps.divf v (dirLen dx dy)

/-- cos i = 0 − (n · u), for the turned normal n and the unit direction u. -/
def cosInc (dx dy nx ny d : F .f32) : F .f32 :=
  FloatOps.subf (lit 0x00000000#32)
    (FloatOps.addf (FloatOps.mulf (facing nx d) (unit dx dx dy)) (FloatOps.mulf (facing ny d) (unit dy dx dy)))

/-- r·cos i − √max(1 − r²(1 − cos² i), 0)  (r = 0.666666686, r² = 0.444444448). -/
def bend (dx dy nx ny d : F .f32) : F .f32 :=
  FloatOps.subf (FloatOps.mulf (lit 0x3F2AAAAB#32) (cosInc dx dy nx ny d))
    (FloatOps.sqrt (FloatOps.maximumf
      (FloatOps.subf (lit 0x3F800000#32)
        (FloatOps.mulf (lit 0x3EE38E39#32)
          (FloatOps.subf (lit 0x3F800000#32) (FloatOps.mulf (cosInc dx dy nx ny d) (cosInc dx dy nx ny d)))))
      (lit 0x00000000#32)))

/-- One coordinate of the refracted direction: r·u + bend·n, for the direction's coordinate v and the normal's n. -/
def bentOf (v n dx dy nx ny d : F .f32) : F .f32 :=
  FloatOps.addf (FloatOps.mulf (lit 0x3F2AAAAB#32) (unit v dx dy)) (FloatOps.mulf (bend dx dy nx ny d) (facing n d))

/-! ## Both results of one ray, from the ray -/

/-- One coordinate of the hit point: o, v the origin's and the direction's coordinate on that axis. -/
def collide (o v ox oy dx dy p : F .f32) : F .f32 := along o v (hit ox oy dx dy p)

/-- normal · direction at the hit point. -/
def incidence (ox oy dx dy p : F .f32) : F .f32 :=
  dotp (normX (hitY ox oy dx dy p)) (normY (hitY ox oy dx dy p)) dx dy

/-- One coordinate of the refracted direction: v the direction's coordinate, n the unit normal's, on that axis. -/
def refract (v n ox oy dx dy p : F .f32) : F .f32 :=
  bentOf v n dx dy (normX (hitY ox oy dx dy p)) (normY (hitY ox oy dx dy p)) (incidence ox oy dx dy p)

end Cert.Ray

end
-- ==== Proof.KernelRay.lean ====
/-
  The kernel body, ray by ray: what each of its four row stores holds at a lane is the ray function of the four
  loaded rows at that lane (and of the one loaded surface position), for any float instance.

  The body loads row 0 and row 1 of the origins' block (ox, oy) and of the directions' block (dx, dy) and the 1×1
  block with the surface position, computes lane by lane, and stores the hit point's x and y as rows 0 and 1 of the
  first output block and the refracted direction's x and y as rows 0 and 1 of the second. Every operation of the
  body is lanewise, so each payload is the composition, at the lane, of the scalar operations that `Cert.Ray` names.
-/
import proofs.«123952_j71193377899036_1_alg».proof.Proof.Ray
import proofs.«123952_j71193377899036_1_alg».proof.Proof.Gen.KernelIdeal.Skeleton
import Idealize.ShloMosaic.Lib.Pipeline.Value

noncomputable section

namespace Cert.KernelIdeal.RayBody

open Cert.KernelIdeal Cert.KernelIdeal.Gen Idealize.ShloMosaic Cert.Ray

variable {F : FTy → Type} [FloatOps F]

/-! ## The loaded rows: a cast to the same shape changes nothing -/

theorem row_ox (v : Vec F S1x32768 .f32) : k0_pay1 v = v := shapeCast_self v _
theorem row_oy (v : Vec F S1x32768 .f32) : k0_pay2 v = v := shapeCast_self v _
theorem row_dx (v : Vec F S1x32768 .f32) : k0_pay3 v = v := shapeCast_self v _
theorem row_dy (v : Vec F S1x32768 .f32) : k0_pay4 v = v := shapeCast_self v _

/-- The surface position the body extracts from its 1×1 block. -/
abbrev pos (s : Vec F S1x1 .f32) : F .f32 := extractAt ![0, 0] s inpos_S1x1_p0_0

/-! ## The quadratic's coefficients and guards, lane by lane -/

theorem quadA_lane (dy : Vec F S1x32768 .f32) : k0_pay5 dy = fun j => quadA (dy j) := by
  unfold k0_pay5; rw [row_dy]; rfl

theorem quadB_lane (oy dx dy : Vec F S1x32768 .f32) : k0_pay6 oy dx dy = fun j => quadB (oy j) (dx j) (dy j) := by
  unfold k0_pay6; rw [row_oy, row_dx, row_dy]; rfl

theorem quadC_lane (ox oy : Vec F S1x32768 .f32) (s : Vec F S1x1 .f32) :
    k0_pay7 ox oy s = fun j => quadC (ox j) (oy j) (pos s) := by
  unfold k0_pay7; rw [row_ox, row_oy]; rfl

theorem flat_lane (dy : Vec F S1x32768 .f32) : k0_pay8 dy = fun j => flat (dy j) := by
  unfold k0_pay8; rw [quadA_lane]; rfl

theorem safeA_lane (dy : Vec F S1x32768 .f32) : k0_pay9 dy = fun j => safeA (dy j) := by
  unfold k0_pay9; rw [flat_lane, quadA_lane]; rfl

theorem root_lane (ox oy dx dy : Vec F S1x32768 .f32) (s : Vec F S1x1 .f32) :
    k0_pay10 ox oy dx dy s = fun j => root (ox j) (oy j) (dx j) (dy j) (pos s) := by
  unfold k0_pay10; rw [quadB_lane, quadA_lane, quadC_lane]; rfl

theorem upward_lane (oy dx dy : Vec F S1x32768 .f32) : k0_pay11 oy dx dy = fun j => upward (oy j) (dx j) (dy j) := by
  unfold k0_pay11; rw [quadB_lane]; rfl

/-! ## The hit, the hit point and the normal, from the coefficients' rows -/

theorem hit_lane (b c : FVec F S1x32768 .f32) (l : IVec S1x32768 1) (a r : FVec F S1x32768 .f32) (g : IVec S1x32768 1) :
    k0_pay13 b c l a r g (Scalar.ofBits .f32 0xBF800000#32) (k0_pay12 (F := F))
      = fun j => hitOf (b j) (c j) (l j) (a j) (r j) (g j) := rfl

theorem hitX_lane (o v b c : FVec F S1x32768 .f32) (l : IVec S1x32768 1) (a r : FVec F S1x32768 .f32) (g : IVec S1x32768 1) :
    k0_pay14 o v b c l a r g (Scalar.ofBits .f32 0xBF800000#32) (k0_pay12 (F := F))
      = fun j => along (o j) (v j) (hitOf (b j) (c j) (l j) (a j) (r j) (g j)) := by
  unfold k0_pay14; rw [hit_lane]; rfl

theorem hitY_lane (o v b c : FVec F S1x32768 .f32) (l : IVec S1x32768 1) (a r : FVec F S1x32768 .f32) (g : IVec S1x32768 1) :
    k0_pay15 o v b c l a r g (Scalar.ofBits .f32 0xBF800000#32) (k0_pay12 (F := F))
      = fun j => along (o j) (v j) (hitOf (b j) (c j) (l j) (a j) (r j) (g j)) := by
  unfold k0_pay15; rw [hit_lane]; rfl

theorem slope_lane (o v b c : FVec F S1x32768 .f32) (l : IVec S1x32768 1) (a r : FVec F S1x32768 .f32) (g : IVec S1x32768 1) :
    k0_pay17 o v b c l a r g (Scalar.ofBits .f32 0xBF800000#32) (k0_pay12 (F := F))
      = fun j => slope (along (o j) (v j) (hitOf (b j) (c j) (l j) (a j) (r j) (g j))) := by
  unfold k0_pay17; rw [hitY_lane]; rfl

theorem normLen_lane (o v b c : FVec F S1x32768 .f32) (l : IVec S1x32768 1) (a r : FVec F S1x32768 .f32) (g : IVec S1x32768 1) :
    k0_pay18 o v b c l a r g (Scalar.ofBits .f32 0xBF800000#32) (k0_pay12 (F := F))
      = fun j => normLen (along (o j) (v j) (hitOf (b j) (c j) (l j) (a j) (r j) (g j))) := by
  unfold k0_pay18; rw [slope_lane]; rfl

theorem normX_lane (o v b c : FVec F S1x32768 .f32) (l : IVec S1x32768 1) (a r : FVec F S1x32768 .f32) (g : IVec S1x32768 1) :
    k0_pay19 o v b c l a r g (Scalar.ofBits .f32 0xBF800000#32) (k0_pay12 (F := F))
      = fun j => normX (along (o j) (v j) (hitOf (b j) (c j) (l j) (a j) (r j) (g j))) := by
  unfold k0_pay19; rw [normLen_lane]; rfl

theorem normY_lane (o v b c : FVec F S1x32768 .f32) (l : IVec S1x32768 1) (a r : FVec F S1x32768 .f32) (g : IVec S1x32768 1) :
    k0_pay20 o v b c l a r g (Scalar.ofBits .f32 0xBF800000#32) (k0_pay12 (F := F))
      = fun j => normY (along (o j) (v j) (hitOf (b j) (c j) (l j) (a j) (r j) (g j))) := by
  unfold k0_pay20; rw [slope_lane, normLen_lane]; rfl

theorem dotp_lane (o u v b c : FVec F S1x32768 .f32) (l : IVec S1x32768 1) (a r : FVec F S1x32768 .f32) (g : IVec S1x32768 1) :
    k0_pay21 o u v b c l a r g (Scalar.ofBits .f32 0xBF800000#32) (k0_pay12 (F := F))
      = fun j => dotp (normX (along (o j) (v j) (hitOf (b j) (c j) (l j) (a j) (r j) (g j))))
          (normY (along (o j) (v j) (hitOf (b j) (c j) (l j) (a j) (r j) (g j)))) (u j) (v j) := by
  unfold k0_pay21; rw [normX_lane, normY_lane]; rfl

/-! ## Refraction, from the direction's rows, the normal's rows and their product's row -/

theorem bend_lane (dx dy nx ny d : FVec F S1x32768 .f32) :
    k0_pay28 dx dy nx ny d (Scalar.ofBits .f32 0x00000000#32) = fun j => bend (dx j) (dy j) (nx j) (ny j) (d j) := rfl

theorem bentX_lane (dx dy nx ny d : FVec F S1x32768 .f32) :
    k0_pay29 dx dy nx ny d (Scalar.ofBits .f32 0x00000000#32)
      = fun j => bentOf (dx j) (nx j) (dx j) (dy j) (nx j) (ny j) (d j) := by
  unfold k0_pay29; rw [bend_lane]; rfl

theorem bentY_lane (dx dy nx ny d : FVec F S1x32768 .f32) :
    k0_pay30 dx dy nx ny d (Scalar.ofBits .f32 0x00000000#32)
      = fun j => bentOf (dy j) (ny j) (dx j) (dy j) (nx j) (ny j) (d j) := by
  unfold k0_pay30; rw [bend_lane]; rfl

/-! ## The four stores, from the five loads -/

/-- Row 0 of the first output block: the hit point's x. -/
theorem store_hitX (ox oy dx dy : Vec F S1x32768 .f32) (s : Vec F S1x1 .f32) :
    k0_pay14 (k0_pay1 ox) (k0_pay3 dx) (k0_pay6 oy dx dy) (k0_pay7 ox oy s) (k0_pay8 dy) (k0_pay9 dy) (k0_pay10 ox oy dx dy s)
        (k0_pay11 oy dx dy) (Scalar.ofBits .f32 0xBF800000#32) (k0_pay12 (F := F))
      = fun j => collide (ox j) (dx j) (ox j) (oy j) (dx j) (dy j) (pos s) := by
  rw [hitX_lane, row_ox, row_dx, quadB_lane, quadC_lane, flat_lane, safeA_lane, root_lane, upward_lane]; rfl

/-- Row 1 of the first output block: the hit point's y. -/
theorem store_hitY (ox oy dx dy : Vec F S1x32768 .f32) (s : Vec F S1x1 .f32) :
    k0_pay15 (k0_pay2 oy) (k0_pay4 dy) (k0_pay6 oy dx dy) (k0_pay7 ox oy s) (k0_pay8 dy) (k0_pay9 dy) (k0_pay10 ox oy dx dy s)
        (k0_pay11 oy dx dy) (Scalar.ofBits .f32 0xBF800000#32) (k0_pay12 (F := F))
      = fun j => collide (oy j) (dy j) (ox j) (oy j) (dx j) (dy j) (pos s) := by
  rw [hitY_lane, row_oy, row_dy, quadB_lane, quadC_lane, flat_lane, safeA_lane, root_lane, upward_lane]; rfl

/-- Row 0 of the second output block: the refracted direction's x. -/
theorem store_bentX (ox oy dx dy : Vec F S1x32768 .f32) (s : Vec F S1x1 .f32) :
    k0_pay29 (k0_pay3 dx) (k0_pay4 dy)
        (k0_pay19 (k0_pay2 oy) (k0_pay4 dy) (k0_pay6 oy dx dy) (k0_pay7 ox oy s) (k0_pay8 dy) (k0_pay9 dy) (k0_pay10 ox oy dx dy s)
          (k0_pay11 oy dx dy) (Scalar.ofBits .f32 0xBF800000#32) (k0_pay12 (F := F)))
        (k0_pay20 (k0_pay2 oy) (k0_pay4 dy) (k0_pay6 oy dx dy) (k0_pay7 ox oy s) (k0_pay8 dy) (k0_pay9 dy) (k0_pay10 ox oy dx dy s)
          (k0_pay11 oy dx dy) (Scalar.ofBits .f32 0xBF800000#32) (k0_pay12 (F := F)))
        (k0_pay21 (k0_pay2 oy) (k0_pay3 dx) (k0_pay4 dy) (k0_pay6 oy dx dy) (k0_pay7 ox oy s) (k0_pay8 dy) (k0_pay9 dy)
          (k0_pay10 ox oy dx dy s) (k0_pay11 oy dx dy) (Scalar.ofBits .f32 0xBF800000#32) (k0_pay12 (F := F)))
        (Scalar.ofBits .f32 0x00000000#32)
      = fun j => refract (dx j) (normX (hitY (ox j) (oy j) (dx j) (dy j) (pos s))) (ox j) (oy j) (dx j) (dy j) (pos s) := by
  rw [bentX_lane, normX_lane, normY_lane, dotp_lane, row_oy, row_dx, row_dy, quadB_lane, quadC_lane, flat_lane, safeA_lane,
    root_lane, upward_lane]; rfl

/-- Row 1 of the second output block: the refracted direction's y. -/
theorem store_bentY (ox oy dx dy : Vec F S1x32768 .f32) (s : Vec F S1x1 .f32) :
    k0_pay30 (k0_pay3 dx) (k0_pay4 dy)
        (k0_pay19 (k0_pay2 oy) (k0_pay4 dy) (k0_pay6 oy dx dy) (k0_pay7 ox oy s) (k0_pay8 dy) (k0_pay9 dy) (k0_pay10 ox oy dx dy s)
          (k0_pay11 oy dx dy) (Scalar.ofBits .f32 0xBF800000#32) (k0_pay12 (F := F)))
        (k0_pay20 (k0_pay2 oy) (k0_pay4 dy) (k0_pay6 oy dx dy) (k0_pay7 ox oy s) (k0_pay8 dy) (k0_pay9 dy) (k0_pay10 ox oy dx dy s)
          (k0_pay11 oy dx dy) (Scalar.ofBits .f32 0xBF800000#32) (k0_pay12 (F := F)))
        (k0_pay21 (k0_pay2 oy) (k0_pay3 dx) (k0_pay4 dy) (k0_pay6 oy dx dy) (k0_pay7 ox oy s) (k0_pay8 dy) (k0_pay9 dy)
          (k0_pay10 ox oy dx dy s) (k0_pay11 oy dx dy) (Scalar.ofBits .f32 0xBF800000#32) (k0_pay12 (F := F)))
        (Scalar.ofBits .f32 0x00000000#32)
      = fun j => refract (dy j) (normY (hitY (ox j) (oy j) (dx j) (dy j) (pos s))) (ox j) (oy j) (dx j) (dy j) (pos s) := by
  rw [bentY_lane, normX_lane, normY_lane, dotp_lane, row_oy, row_dx, row_dy, quadB_lane, quadC_lane, flat_lane, safeA_lane,
    root_lane, upward_lane]; rfl

end Cert.KernelIdeal.RayBody

end
-- ==== Proof.KernelBlock.lean ====
/-
  One grid point of the kernel: each output block after the body, as ONE function of the three input blocks.

  The body's two row stores into an output block tile it (row 0 and row 1), and both rows are the same function of
  the block's index: entry (r, l) of the first output block is coordinate r of the hit point of the ray in lane l, and
  entry (r, l) of the second is coordinate r of its refracted direction — the ray in lane l being column l of the
  origins' and the directions' blocks, and the surface position the entry of the 1×1 block.
-/
import proofs.«123952_j71193377899036_1_alg».proof.Proof.KernelRay
import proofs.«123952_j71193377899036_1_alg».proof.Proof.Gen.KernelIdeal.Frame
import Idealize.ShloMosaic.Lib.Pipeline.Value
import Idealize.ShloMosaic.Lib.ValueIdx

noncomputable section

namespace Cert.KernelIdeal.RayBlock

open Cert.KernelIdeal Cert.KernelIdeal.Gen Idealize.ShloMosaic Idealize.ShloMosaic.ValueIdx Cert.Ray
open Cert.KernelIdeal.RayBody (pos)

variable {F : FTy → Type} [FloatOps F]

/-- The lane of a block index. -/
def lane (y : S2x32768.Idx) : Fin 32768 := ⟨(y 1).val, idx2_lt1 y⟩

/-- The first output block: coordinate (y 0) of the hit point of the ray in the index's lane. -/
def hitBlock (x0 x1 : Vec F S2x32768 .f32) (x2 : Vec F S1x1 .f32) : Vec F S2x32768 .f32 := fun y =>
  collide (x0 y) (x1 y) (x0 (ix2 (0 : Fin 2) (lane y))) (x0 (ix2 (1 : Fin 2) (lane y)))
    (x1 (ix2 (0 : Fin 2) (lane y))) (x1 (ix2 (1 : Fin 2) (lane y))) (pos x2)

/-- The second output block: coordinate (y 0) of the refracted direction of the ray in the index's lane. -/
def bentBlock (x0 x1 : Vec F S2x32768 .f32) (x2 : Vec F S1x1 .f32) : Vec F S2x32768 .f32 := fun y =>
  refract (x1 y)
    (normAt (y 0).val (hitY (x0 (ix2 (0 : Fin 2) (lane y))) (x0 (ix2 (1 : Fin 2) (lane y)))
      (x1 (ix2 (0 : Fin 2) (lane y))) (x1 (ix2 (1 : Fin 2) (lane y))) (pos x2)))
    (x0 (ix2 (0 : Fin 2) (lane y))) (x0 (ix2 (1 : Fin 2) (lane y)))
    (x1 (ix2 (0 : Fin 2) (lane y))) (x1 (ix2 (1 : Fin 2) (lane y))) (pos x2)

theorem zeros : (![0, 0] : Fin 2 → Nat) = fun _ => 0 := funext fun a => by fin_cases a <;> rfl

/-- Lane l of row 0, as the block index of row rectangle 0's or 1's lane l. -/
theorem row0_of_r0 (x : r0_0.shape.Idx) : ix2 (0 : Fin 2) (lane (r0_0.emb x)) = r0_0.emb x := by
  funext a; apply Fin.ext
  match a with
  | ⟨0, _⟩ => show 0 = 0 + 1 * (x 0).val; have h : (x 0).val < 1 := (x 0).isLt; omega
  | ⟨1, _⟩ => rfl
theorem row1_of_r0 (x : r0_0.shape.Idx) : ix2 (1 : Fin 2) (lane (r0_0.emb x)) = r0_1.emb x := by
  funext a; apply Fin.ext
  match a with
  | ⟨0, _⟩ => show 1 = 1 + 1 * (x 0).val; have h : (x 0).val < 1 := (x 0).isLt; omega
  | ⟨1, _⟩ => rfl
theorem row0_of_r1 (x : r0_1.shape.Idx) : ix2 (0 : Fin 2) (lane (r0_1.emb x)) = r0_0.emb x := by
  funext a; apply Fin.ext
  match a with
  | ⟨0, _⟩ => show 0 = 0 + 1 * (x 0).val; have h : (x 0).val < 1 := (x 0).isLt; omega
  | ⟨1, _⟩ => rfl
theorem row1_of_r1 (x : r0_1.shape.Idx) : ix2 (1 : Fin 2) (lane (r0_1.emb x)) = r0_1.emb x := by
  funext a; apply Fin.ext
  match a with
  | ⟨0, _⟩ => show 1 = 1 + 1 * (x 0).val; have h : (x 0).val < 1 := (x 0).isLt; omega
  | ⟨1, _⟩ => rfl
theorem rowNo_r0 (x : r0_0.shape.Idx) : (r0_0.emb x 0).val = 0 := by
  show 0 + 1 * (x 0).val = 0; have h : (x 0).val < 1 := (x 0).isLt; omega
theorem rowNo_r1 (x : r0_1.shape.Idx) : (r0_1.emb x 0).val = 1 := by
  show 1 + 1 * (x 0).val = 1; have h : (x 0).val < 1 := (x 0).isLt; omega

/-- The first output block after the body. -/
theorem out_hit (x0 x1 : Vec F S2x32768 .f32) (x2 : Vec F S1x1 .f32) : out0_3 x0 x1 x2 = hitBlock x0 x1 x2 := by
  funext y
  unfold out0_3
  refine View.canon_apply_of_pieces (hitBlock x0 x1 x2) _ ?_ y (cover0_3 _ _ y)
  intro p hp
  simp only [List.mem_cons, List.mem_nil_iff, or_false] at hp
  rcases hp with rfl | rfl
  · intro x
    show _ = hitBlock x0 x1 x2 (r0_1.emb x)
    unfold hitBlock
    rw [row0_of_r1, row1_of_r1, RayBody.store_hitY, View.ld_unit_zero (S := S1x1) zeros]
    rfl
  · intro x
    show _ = hitBlock x0 x1 x2 (r0_0.emb x)
    unfold hitBlock
    rw [row0_of_r0, row1_of_r0, RayBody.store_hitX, View.ld_unit_zero (S := S1x1) zeros]
    rfl

/-- The second output block after the body. -/
theorem out_bent (x0 x1 : Vec F S2x32768 .f32) (x2 : Vec F S1x1 .f32) : out0_4 x0 x1 x2 = bentBlock x0 x1 x2 := by
  funext y
  unfold out0_4
  refine View.canon_apply_of_pieces (bentBlock x0 x1 x2) _ ?_ y (cover0_4 _ _ y)
  intro p hp
  simp only [List.mem_cons, List.mem_nil_iff, or_false] at hp
  rcases hp with rfl | rfl
  · intro x
    show _ = bentBlock x0 x1 x2 (r0_1.emb x)
    unfold bentBlock
    rw [row0_of_r1, row1_of_r1, rowNo_r1, normAt_one, RayBody.store_bentY, View.ld_unit_zero (S := S1x1) zeros]
    rfl
  · intro x
    show _ = bentBlock x0 x1 x2 (r0_0.emb x)
    unfold bentBlock
    rw [row0_of_r0, row1_of_r0, rowNo_r0, normAt_zero, RayBody.store_bentX, View.ld_unit_zero (S := S1x1) zeros]
    rfl

end Cert.KernelIdeal.RayBlock

end
-- ==== Proof.KernelArray.lean ====
/-
  The kernel's two output arrays after the region, each as ONE function of the region's three input arrays.

  The grid has 128 points; point t stages columns [32768·t, 32768·(t+1)) of the [2, N] origins, directions and
  both outputs, and the whole 1×1 surface position. What point t writes back is block t of one function of the
  input arrays — entry (r, n) is coordinate r of the hit point (of the refracted direction) of the ray in column n —,
  and the 128 blocks tile the outputs, so each output array ends at that function.
-/
import proofs.«123952_j71193377899036_1_alg».proof.Proof.KernelBlock
import proofs.«123952_j71193377899036_1_alg».proof.Proof.Gen.KernelIdeal.Frame
import Idealize.ShloMosaic.Lib.Pipeline.Value
import Idealize.ShloMosaic.Lib.ValueIdx

set_option maxRecDepth 16384

noncomputable section

namespace Cert.KernelIdeal.RayArray

open Cert.KernelIdeal Cert.KernelIdeal.Gen Idealize.ShloMosaic Idealize.ShloMosaic.TcCoe Idealize.SL.Sem
open Idealize.ShloMosaic.ValueIdx Cert.Ray
open Idealize.ShloMosaic.Pipeline (Dat)
open Cert.KernelIdeal.RayBody (pos)
open Cert.KernelIdeal.RayBlock (lane hitBlock bentBlock)

variable {F : FTy → Type} [FloatOps F]

/-- The column of an index of the [2, N] arrays. -/
def col (i : S2x4194304.Idx) : Fin 4194304 := ⟨(i 1).val, idx2_lt1 i⟩

/-- Entry (r, n): coordinate r of the hit point of the ray in column n. -/
def hitArr (A0 A1 : S2x4194304.Idx → Elt F .f32) (A2 : S1x1.Idx → Elt F .f32) : S2x4194304.Idx → Elt F .f32 := fun i =>
  collide (A0 i) (A1 i) (A0 (ix2 (0 : Fin 2) (col i))) (A0 (ix2 (1 : Fin 2) (col i)))
    (A1 (ix2 (0 : Fin 2) (col i))) (A1 (ix2 (1 : Fin 2) (col i))) (pos A2)

/-- Entry (r, n): coordinate r of the refracted direction of the ray in column n. -/
def bentArr (A0 A1 : S2x4194304.Idx → Elt F .f32) (A2 : S1x1.Idx → Elt F .f32) : S2x4194304.Idx → Elt F .f32 := fun i =>
  refract (A1 i)
    (normAt (i 0).val (hitY (A0 (ix2 (0 : Fin 2) (col i))) (A0 (ix2 (1 : Fin 2) (col i)))
      (A1 (ix2 (0 : Fin 2) (col i))) (A1 (ix2 (1 : Fin 2) (col i))) (pos A2)))
    (A0 (ix2 (0 : Fin 2) (col i))) (A0 (ix2 (1 : Fin 2) (col i)))
    (A1 (ix2 (0 : Fin 2) (col i))) (A1 (ix2 (1 : Fin 2) (col i))) (pos A2)

/-- Where entry y of block k sits in a [2, N] array: same row, column 32768·k + lane. -/
def place (k : Nat) (hk : k < 128) (y : S2x32768.Idx) : S2x4194304.Idx :=
  ix2 (⟨(y 0).val, idx2_lt0 y⟩ : Fin 2) (⟨k * 32768 + (y 1).val, by have h := idx2_lt1 y; omega⟩ : Fin 4194304)

theorem place_row (k : Nat) (hk : k < 128) (r : Fin 2) (y : S2x32768.Idx) :
    place k hk (ix2 r (lane y)) = ix2 r (col (place k hk y)) := by
  funext a; apply Fin.ext
  match a with
  | ⟨0, _⟩ => rfl
  | ⟨1, _⟩ => rfl

/-- A block's entry is the array function's entry at its place, when the input blocks are the input arrays' there. -/
theorem hitBlock_place (A0 A1 : S2x4194304.Idx → Elt F .f32) (A2 : S1x1.Idx → Elt F .f32)
    (x0 x1 : Vec F S2x32768 .f32) (x2 : Vec F S1x1 .f32) (k : Nat) (hk : k < 128)
    (h0 : ∀ y, x0 y = A0 (place k hk y)) (h1 : ∀ y, x1 y = A1 (place k hk y)) (h2 : pos x2 = pos A2) (y : S2x32768.Idx) :
    hitBlock x0 x1 x2 y = hitArr A0 A1 A2 (place k hk y) := by
  unfold hitBlock hitArr
  rw [h0, h1, h0, h0, h1, h1, h2, place_row, place_row]

theorem bentBlock_place (A0 A1 : S2x4194304.Idx → Elt F .f32) (A2 : S1x1.Idx → Elt F .f32)
    (x0 x1 : Vec F S2x32768 .f32) (x2 : Vec F S1x1 .f32) (k : Nat) (hk : k < 128)
    (h0 : ∀ y, x0 y = A0 (place k hk y)) (h1 : ∀ y, x1 y = A1 (place k hk y)) (h2 : pos x2 = pos A2) (y : S2x32768.Idx) :
    bentBlock x0 x1 x2 y = bentArr A0 A1 A2 (place k hk y) := by
  unfold bentBlock bentArr
  rw [h1, h0, h0, h1, h1, h2, place_row, place_row]
  rfl

/-! ## The grid: where each window's block sits -/

variable (m : (ℓ : Loc nD τ sig) → Buf (Elt F) ℓ) (ρ : Dev nD → PrngReg)

/-- The printed index maps, decided over the 128 points: the four big windows' block t is block column t of their
    arrays, and the surface position's window stays at its one block. -/
theorem idx_facts : ∀ t : Fin cfg0.N,
    win0_0.index t (0 : Fin 2) = 0 ∧ win0_0.index t (1 : Fin 2) = t.val
    ∧ win0_1.index t (0 : Fin 2) = 0 ∧ win0_1.index t (1 : Fin 2) = t.val
    ∧ win0_2.index t (0 : Fin 2) = 0 ∧ win0_2.index t (1 : Fin 2) = 0
    ∧ win0_3.index t (0 : Fin 2) = 0 ∧ win0_3.index t (1 : Fin 2) = t.val
    ∧ win0_4.index t (0 : Fin 2) = 0 ∧ win0_4.index t (1 : Fin 2) = t.val :=
  (by decide +kernel : ∀ t : Fin grid0.N, _)

theorem point_lt (t : Fin cfg0.N) : t.val < 128 := lt_of_lt_of_eq t.isLt N_0

theorem emb0 (t : Fin cfg0.N) (y : S2x32768.Idx) : ((cfg0.win 0).blk t).view.emb y = place t.val (point_lt t) y := by
  obtain ⟨e00, e01, -⟩ := idx_facts t
  funext a; apply Fin.ext
  match a with
  | ⟨0, _⟩ => show win0_0.index t (0 : Fin 2) * 2 + 1 * (y 0).val = (y 0).val; omega
  | ⟨1, _⟩ => show win0_0.index t (1 : Fin 2) * 32768 + 1 * (y 1).val = t.val * 32768 + (y 1).val; omega
theorem emb1 (t : Fin cfg0.N) (y : S2x32768.Idx) : ((cfg0.win 1).blk t).view.emb y = place t.val (point_lt t) y := by
  obtain ⟨-, -, e10, e11, -⟩ := idx_facts t
  funext a; apply Fin.ext
  match a with
  | ⟨0, _⟩ => show win0_1.index t (0 : Fin 2) * 2 + 1 * (y 0).val = (y 0).val; omega
  | ⟨1, _⟩ => show win0_1.index t (1 : Fin 2) * 32768 + 1 * (y 1).val = t.val * 32768 + (y 1).val; omega
theorem emb2 (t : Fin cfg0.N) (y : S1x1.Idx) : ((cfg0.win 2).blk t).view.emb y = y := by
  obtain ⟨-, -, -, -, e20, e21, -⟩ := idx_facts t
  funext a; apply Fin.ext
  match a with
  | ⟨0, _⟩ => show win0_2.index t (0 : Fin 2) * 1 + 1 * (y 0).val = (y 0).val; omega
  | ⟨1, _⟩ => show win0_2.index t (1 : Fin 2) * 1 + 1 * (y 1).val = (y 1).val; omega
theorem emb3 (t : Fin cfg0.N) (y : S2x32768.Idx) : ((cfg0.win 3).blk t).view.emb y = place t.val (point_lt t) y := by
  obtain ⟨-, -, -, -, -, -, e30, e31, -⟩ := idx_facts t
  funext a; apply Fin.ext
  match a with
  | ⟨0, _⟩ => show win0_3.index t (0 : Fin 2) * 2 + 1 * (y 0).val = (y 0).val; omega
  | ⟨1, _⟩ => show win0_3.index t (1 : Fin 2) * 32768 + 1 * (y 1).val = t.val * 32768 + (y 1).val; omega
theorem emb4 (t : Fin cfg0.N) (y : S2x32768.Idx) : ((cfg0.win 4).blk t).view.emb y = place t.val (point_lt t) y := by
  obtain ⟨-, -, -, -, -, -, -, -, e40, e41⟩ := idx_facts t
  funext a; apply Fin.ext
  match a with
  | ⟨0, _⟩ => show win0_4.index t (0 : Fin 2) * 2 + 1 * (y 0).val = (y 0).val; omega
  | ⟨1, _⟩ => show win0_4.index t (1 : Fin 2) * 32768 + 1 * (y 1).val = t.val * 32768 + (y 1).val; omega

/-- The input blocks at a point are the input arrays read at the block's places. -/
theorem blk0 (c : Dev nD) (t : Fin cfg0.N) (y : S2x32768.Idx) : iblk m c 0 t y = V m c main_v0 (place t.val (point_lt t) y) := by
  show V m c main_v0 (((cfg0.win 0).blk t).view.emb y) = _
  rw [emb0]
theorem blk1 (c : Dev nD) (t : Fin cfg0.N) (y : S2x32768.Idx) : iblk m c 1 t y = V m c main_v1 (place t.val (point_lt t) y) := by
  show V m c main_v1 (((cfg0.win 1).blk t).view.emb y) = _
  rw [emb1]
theorem blk2 (c : Dev nD) (t : Fin cfg0.N) : pos (iblk m c 2 t) = pos (V m c main_v2) := by
  show V m c main_v2 (((cfg0.win 2).blk t).view.emb _) = _
  rw [emb2]
  rfl

/-! ## What a point writes back, and the arrays after the region -/

/-- What point t writes back to the first output is block t of the hit points' array. -/
theorem flushed_hit (c : Dev nD) (t : Fin cfg0.N) :
    (dats m 0 c).flushed 3 t = ((cfg0.win 3).blk t).view.read (Elt F) (hitArr (V m c main_v0) (V m c main_v1) (V m c main_v2)) := by
  show (cfg0.win 3).cut (grid0.coords t) ((dats m 0 c).after 3 t) = _
  rw [after0_3]
  funext j
  show out0_3 (iblk m c 0 t) (iblk m c 1 t) (iblk m c 2 t) j
    = hitArr (V m c main_v0) (V m c main_v1) (V m c main_v2) (((cfg0.win 3).blk t).view.emb j)
  rw [emb3]
  exact (congrFun (RayBlock.out_hit (iblk m c 0 t) (iblk m c 1 t) (iblk m c 2 t)) j).trans
    (hitBlock_place (V m c main_v0) (V m c main_v1) (V m c main_v2) (iblk m c 0 t) (iblk m c 1 t) (iblk m c 2 t)
      t.val (point_lt t) (blk0 m c t) (blk1 m c t) (blk2 m c t) j)

/-- What point t writes back to the second output is block t of the refracted directions' array. -/
theorem flushed_bent (c : Dev nD) (t : Fin cfg0.N) :
    (dats m 0 c).flushed 4 t = ((cfg0.win 4).blk t).view.read (Elt F) (bentArr (V m c main_v0) (V m c main_v1) (V m c main_v2)) := by
  show (cfg0.win 4).cut (grid0.coords t) ((dats m 0 c).after 4 t) = _
  rw [after0_4]
  funext j
  show out0_4 (iblk m c 0 t) (iblk m c 1 t) (iblk m c 2 t) j
    = bentArr (V m c main_v0) (V m c main_v1) (V m c main_v2) (((cfg0.win 4).blk t).view.emb j)
  rw [emb4]
  exact (congrFun (RayBlock.out_bent (iblk m c 0 t) (iblk m c 1 t) (iblk m c 2 t)) j).trans
    (bentBlock_place (V m c main_v0) (V m c main_v1) (V m c main_v2) (iblk m c 0 t) (iblk m c 1 t) (iblk m c 2 t)
      t.val (point_lt t) (blk0 m c t) (blk1 m c t) (blk2 m c t) j)

/-- An index of an output array is in point t's block iff each coordinate is in the block's range on its axis. -/
theorem mem_blk3 (t : Fin cfg0.N) (i : S2x4194304.Idx) :
    i ∈ ((cfg0.win 3).blk t).view.set ↔ ∀ a : Fin 2, win0_3.index t a * S2x32768.size a ≤ (i a).val ∧ (i a).val < win0_3.index t a * S2x32768.size a + S2x32768.size a := by
  show i ∈ ((View.whole main_v3_0).slice (win0_3.rect t)).set ↔ _
  rw [View.set_slice_whole, Rect.mem_set_unit]
  exact Iff.rfl
theorem mem_blk4 (t : Fin cfg0.N) (i : S2x4194304.Idx) :
    i ∈ ((cfg0.win 4).blk t).view.set ↔ ∀ a : Fin 2, win0_4.index t a * S2x32768.size a ≤ (i a).val ∧ (i a).val < win0_4.index t a * S2x32768.size a + S2x32768.size a := by
  show i ∈ ((View.whole main_v3_1).slice (win0_4.rect t)).set ↔ _
  rw [View.set_slice_whole, Rect.mem_set_unit]
  exact Iff.rfl

/-- The point whose block holds column n is n / 32768. -/
def pointOf (i : S2x4194304.Idx) : Fin cfg0.N :=
  ⟨(i 1).val / 32768, by have h : (i 1).val < 4194304 := (i 1).isLt; rw [show cfg0.N = 128 from N_0]; omega⟩

theorem cover3 (i : S2x4194304.Idx) : ∃ t : Fin cfg0.N, (cfg0.win 3).flush t = true ∧ i ∈ ((cfg0.win 3).blk t).view.set := by
  have hi0 : (i 0).val < 2 := (i 0).isLt
  have hi1 : (i 1).val < 4194304 := (i 1).isLt
  obtain ⟨-, -, -, -, -, -, e30, e31, -⟩ := idx_facts (pointOf i)
  have ht : (pointOf i).val = (i 1).val / 32768 := rfl
  refine ⟨pointOf i, flush0_3 _, ?_⟩
  rw [mem_blk3]
  intro a
  match a with
  | ⟨0, _⟩ => show win0_3.index (pointOf i) (0 : Fin 2) * 2 ≤ (i 0).val ∧ (i 0).val < win0_3.index (pointOf i) (0 : Fin 2) * 2 + 2; omega
  | ⟨1, _⟩ => show win0_3.index (pointOf i) (1 : Fin 2) * 32768 ≤ (i 1).val ∧ (i 1).val < win0_3.index (pointOf i) (1 : Fin 2) * 32768 + 32768; omega

theorem cover4 (i : S2x4194304.Idx) : ∃ t : Fin cfg0.N, (cfg0.win 4).flush t = true ∧ i ∈ ((cfg0.win 4).blk t).view.set := by
  have hi0 : (i 0).val < 2 := (i 0).isLt
  have hi1 : (i 1).val < 4194304 := (i 1).isLt
  obtain ⟨-, -, -, -, -, -, -, -, e40, e41⟩ := idx_facts (pointOf i)
  have ht : (pointOf i).val = (i 1).val / 32768 := rfl
  refine ⟨pointOf i, flush0_4 _, ?_⟩
  rw [mem_blk4]
  intro a
  match a with
  | ⟨0, _⟩ => show win0_4.index (pointOf i) (0 : Fin 2) * 2 ≤ (i 0).val ∧ (i 0).val < win0_4.index (pointOf i) (0 : Fin 2) * 2 + 2; omega
  | ⟨1, _⟩ => show win0_4.index (pointOf i) (1 : Fin 2) * 32768 ≤ (i 1).val ∧ (i 1).val < win0_4.index (pointOf i) (1 : Fin 2) * 32768 + 32768; omega

/-- The first output array after the region. -/
theorem final_hit (c : Dev nD) :
    (dats m 0 c).arrAt 3 cfg0.N = hitArr (V m c main_v0) (V m c main_v1) (V m c main_v2) :=
  (dats m 0 c).arrAt_eq_of_cover 3 _ (fun t _ => flushed_hit m c t) cover3

/-- The second output array after the region. -/
theorem final_bent (c : Dev nD) :
    (dats m 0 c).arrAt 4 cfg0.N = bentArr (V m c main_v0) (V m c main_v1) (V m c main_v2) :=
  (dats m 0 c).arrAt_eq_of_cover 4 _ (fun t _ => flushed_bent m c t) cover4

end Cert.KernelIdeal.RayArray

end
-- ==== Proof.Rays.lean ====
/-
  All the rays at once: the two result arrays as functions of the argument arrays.

  The origins and the directions are [N, 2] arrays (row i is ray i, column 0 its x and column 1 its y) and the surface
  position is a scalar. Entry (i, k) of the first result is coordinate k of ray i's hit point; entry (i, k) of the second
  is coordinate k of its refracted direction. Stated for an arbitrary float instance over `Cert.Ray`.
-/
import proofs.«123952_j71193377899036_1_alg».proof.Proof.Ray
import Idealize.ShloMosaic.Lib.ValueIdx

noncomputable section

namespace Cert.Rays

open Idealize.ShloMosaic Idealize.ShloMosaic.ValueIdx Cert.Ray

variable {F : FTy → Type} [FloatOps F]

/-- The shape of the origins, of the directions and of both results: N = 4194304 rays, two coordinates each. -/
abbrev SRays : Shape := ⟨2, ![4194304, 2]⟩
/-- The shape of the surface position: a scalar. -/
abbrev SPos : Shape := ⟨0, ![]⟩

/-- The ray of an index. -/
def ray (i : SRays.Idx) : Fin 4194304 := ⟨(i 0).val, idx2_lt0 i⟩

/-- The hit points: entry (i, k) is coordinate k of origin i + t·direction i. -/
def hits (o v : SRays.Idx → F .f32) (p : SPos.Idx → F .f32) : SRays.Idx → F .f32 := fun i =>
  collide (o i) (v i) (o (ix2 (ray i) (0 : Fin 2))) (o (ix2 (ray i) (1 : Fin 2)))
    (v (ix2 (ray i) (0 : Fin 2))) (v (ix2 (ray i) (1 : Fin 2))) (p ix0)

/-- The refracted directions: entry (i, k) is coordinate k of ray i's refracted direction. -/
def bents (o v : SRays.Idx → F .f32) (p : SPos.Idx → F .f32) : SRays.Idx → F .f32 := fun i =>
  refract (v i)
    (normAt (i 1).val (hitY (o (ix2 (ray i) (0 : Fin 2))) (o (ix2 (ray i) (1 : Fin 2)))
      (v (ix2 (ray i) (0 : Fin 2))) (v (ix2 (ray i) (1 : Fin 2))) (p ix0)))
    (o (ix2 (ray i) (0 : Fin 2))) (o (ix2 (ray i) (1 : Fin 2)))
    (v (ix2 (ray i) (0 : Fin 2))) (v (ix2 (ray i) (1 : Fin 2))) (p ix0)

end Cert.Rays

end
-- ==== Proof.KernelRun.lean ====
/-
  The kernel program's run: both results as functions of the arguments.

  Before the region the host transposes the origins and the directions to [2, N] and re-lays the scalar surface position
  as 1×1; after it, it transposes both [2, N] outputs back to [N, 2]. Read at an index, a transpose swaps the two
  coordinates, so entry (i, k) of a result is entry (k, i) of the region's output array, whose ray is column i of the
  transposed inputs, that is row i of the arguments: the results are `Cert.Rays.hits` and `Cert.Rays.bents` of the arguments.
-/
import proofs.«123952_j71193377899036_1_alg».proof.Proof.KernelArray
import proofs.«123952_j71193377899036_1_alg».proof.Proof.Rays
import Idealize.ShloMosaic.Lib.StableHlo.Run

set_option maxRecDepth 16384

noncomputable section

namespace Cert.KernelIdeal.RayRun

open Cert.KernelIdeal Cert.KernelIdeal.Gen Idealize.ShloMosaic Idealize.ShloMosaic.TcCoe Idealize.SL.Sem
open Idealize.ShloMosaic.ValueIdx Idealize.ShloMosaic.StableHlo Cert.Ray
open Cert.KernelIdeal.RayBody (pos)
open Cert.KernelIdeal.RayArray (hitArr bentArr col final_hit final_bent)

variable {F : FTy → Type} [FloatOps F]
variable (m : (ℓ : Loc nD τ sig) → Buf (Elt F) ℓ) (ρ : Dev nD → PrngReg)

/-! ## The region's input arrays: the host lines before it -/

theorem V_origins (c : Dev nD) : (V m c main_v0 : S2x4194304.Idx → Elt F .f32)
    = transpose S2x4194304 [1, 0] (m ((c : Thread nD τ).loc main_arg0)) transposes_S4194304x2_S2x4194304_1_0 := by
  show StableHlo.after hostOps0 (fun b => m (c, b)) (Proc.devRef .tc main_v0) = _
  after_results

theorem V_directions (c : Dev nD) : (V m c main_v1 : S2x4194304.Idx → Elt F .f32)
    = transpose S2x4194304 [1, 0] (m ((c : Thread nD τ).loc main_arg1)) transposes_S4194304x2_S2x4194304_1_0 := by
  show StableHlo.after hostOps0 (fun b => m (c, b)) (Proc.devRef .tc main_v1) = _
  after_results

theorem V_position (c : Dev nD) : (V m c main_v2 : S1x1.Idx → Elt F .f32)
    = shapeCast S1x1 (m ((c : Thread nD τ).loc main_arg2)) shapeCasts_S_S1x1 := by
  show StableHlo.after hostOps0 (fun b => m (c, b)) (Proc.devRef .tc main_v2) = _
  after_results; rfl

/-- Entry (r, n) of a transposed [N, 2] array is its entry (n, r). -/
theorem transposed_at (x : S4194304x2.Idx → Elt F .f32) (r : Fin 2) (n : Fin 4194304) :
    transpose S2x4194304 [1, 0] x transposes_S4194304x2_S2x4194304_1_0 (ix2 r n) = x (ix2 n r) :=
  transpose_apply [1, 0] x transposes_S4194304x2_S2x4194304_1_0 (ix2 r n) (ix2 n r)
    (fun b => match b with | ⟨0, _⟩ => rfl | ⟨1, _⟩ => rfl)

/-- Entry (n, r) of a [2, N] array transposed back is its entry (r, n). -/
theorem transposed_back_at (x : S2x4194304.Idx → Elt F .f32) (n : Fin 4194304) (r : Fin 2) :
    transpose S4194304x2 [1, 0] x transposes_S2x4194304_S4194304x2_1_0 (ix2 n r) = x (ix2 r n) :=
  transpose_apply [1, 0] x transposes_S2x4194304_S4194304x2_1_0 (ix2 n r) (ix2 r n)
    (fun b => match b with | ⟨0, _⟩ => rfl | ⟨1, _⟩ => rfl)

/-- The scalar re-laid as 1×1, read at its one entry. -/
theorem relaid_at (x : S_.Idx → Elt F .f32) : pos (shapeCast S1x1 x shapeCasts_S_S1x1) = x ix0 :=
  congrArg x (funext fun a => a.elim0)

/-! ## The host lines after the region -/

theorem tail_hits (c : Dev nD) : Pipeline.afterTail₀ cfgs (dats m) 0 (V0 m) [hostOps1] c main_v4
    = transpose S4194304x2 [1, 0] ((dats m 0 c).arrAt 3 cfg0.N) transposes_S2x4194304_S4194304x2_1_0 := by
  unfold Pipeline.afterTail₀
  show StableHlo.after hostOps1 _ (Proc.devRef .tc main_v4) = _
  after_results
  exact congrArg (fun x => transpose S4194304x2 [1, 0] x transposes_S2x4194304_S4194304x2_1_0)
    (Pipeline.withArrays_arr spec0 launch0.win.arr_inj c _ _ 3)

theorem tail_bents (c : Dev nD) : Pipeline.afterTail₀ cfgs (dats m) 0 (V0 m) [hostOps1] c main_v5
    = transpose S4194304x2 [1, 0] ((dats m 0 c).arrAt 4 cfg0.N) transposes_S2x4194304_S4194304x2_1_0 := by
  unfold Pipeline.afterTail₀
  show StableHlo.after hostOps1 _ (Proc.devRef .tc main_v5) = _
  after_results
  exact congrArg (fun x => transpose S4194304x2 [1, 0] x transposes_S2x4194304_S4194304x2_1_0)
    (Pipeline.withArrays_arr spec0 launch0.win.arr_inj c _ _ 4)

/-! ## The region's inputs read at a ray, and the results -/

theorem origins_at (c : Dev nD) (r : Fin 2) (n : Fin 4194304) :
    V m c main_v0 (ix2 r n) = m ((c : Thread nD τ).loc main_arg0) (ix2 n r) :=
  (congrFun (V_origins m c) _).trans (transposed_at _ r n)

theorem directions_at (c : Dev nD) (r : Fin 2) (n : Fin 4194304) :
    V m c main_v1 (ix2 r n) = m ((c : Thread nD τ).loc main_arg1) (ix2 n r) :=
  (congrFun (V_directions m c) _).trans (transposed_at _ r n)

theorem position_at (c : Dev nD) : pos (V m c main_v2) = m ((c : Thread nD τ).loc main_arg2) ix0 :=
  (congrArg pos (V_position m c)).trans (relaid_at _)

/-- The first output array transposed back is the hit points' array of the arguments. -/
theorem kernel_hits (c : Dev nD) :
    transpose S4194304x2 [1, 0] (hitArr (V m c main_v0) (V m c main_v1) (V m c main_v2)) transposes_S2x4194304_S4194304x2_1_0
      = Cert.Rays.hits (m ((c : Thread nD τ).loc main_arg0)) (m ((c : Thread nD τ).loc main_arg1)) (m ((c : Thread nD τ).loc main_arg2)) := by
  funext i
  obtain ⟨n, k, rfl⟩ : ∃ (n : Fin 4194304) (k : Fin 2), i = ix2 n k := ⟨i 0, i 1, eq_ix2 i⟩
  rw [transposed_back_at]
  unfold hitArr Cert.Rays.hits
  rw [origins_at m c k n, directions_at m c k n, origins_at m c 0 (col (ix2 k n)), origins_at m c 1 (col (ix2 k n)),
    directions_at m c 0 (col (ix2 k n)), directions_at m c 1 (col (ix2 k n)), position_at m c]
  rfl

/-- The second output array transposed back is the refracted directions' array of the arguments. -/
theorem kernel_bents (c : Dev nD) :
    transpose S4194304x2 [1, 0] (bentArr (V m c main_v0) (V m c main_v1) (V m c main_v2)) transposes_S2x4194304_S4194304x2_1_0
      = Cert.Rays.bents (m ((c : Thread nD τ).loc main_arg0)) (m ((c : Thread nD τ).loc main_arg1)) (m ((c : Thread nD τ).loc main_arg2)) := by
  funext i
  obtain ⟨n, k, rfl⟩ : ∃ (n : Fin 4194304) (k : Fin 2), i = ix2 n k := ⟨i 0, i 1, eq_ix2 i⟩
  rw [transposed_back_at]
  unfold bentArr Cert.Rays.bents
  rw [directions_at m c k n, origins_at m c 0 (col (ix2 k n)), origins_at m c 1 (col (ix2 k n)),
    directions_at m c 0 (col (ix2 k n)), directions_at m c 1 (col (ix2 k n)), position_at m c]
  rfl

/-! ## The run -/

/-- Every weakly fair execution of the kernel program terminates with the two results at the hit points' and the
    refracted directions' arrays of the arguments, and the arguments unchanged. -/
theorem run : θ_run defs (onTc (τ := τ) (main (F := F))) ⟨m, fun _ => 0, ρ⟩ fun r => ∀ c : Dev nD,
      r.2.mem ((c.tc : Thread nD τ).loc main_v4)
        = Cert.Rays.hits (m ((c.tc : Thread nD τ).loc main_arg0)) (m ((c.tc : Thread nD τ).loc main_arg1)) (m ((c.tc : Thread nD τ).loc main_arg2))
      ∧ r.2.mem ((c.tc : Thread nD τ).loc main_v5)
        = Cert.Rays.bents (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨
      ((h c).2 main_v4 (Pipeline.mem_restRefs_of main_v4 (by decide) (by decide))).trans
        ((tail_hits m c).trans ((congrArg (fun x => transpose S4194304x2 [1, 0] x transposes_S2x4194304_S4194304x2_1_0)
          (final_hit m c)).trans (kernel_hits m c))),
      ((h c).2 main_v5 (Pipeline.mem_restRefs_of main_v5 (by decide) (by decide))).trans
        ((tail_bents m c).trans ((congrArg (fun x => transpose S4194304x2 [1, 0] x transposes_S2x4194304_S4194304x2_1_0)
          (final_bent m c)).trans (kernel_bents m c))),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.RayRun

end
-- ==== Proof.LibJoin.lean ====
/-
  Two general facts about host programs read as pure terms.

  • Arrays joined along an axis (a two-piece `concatenate`) depend on each piece only through its contents.  The join
    takes its pieces as a list of (shape, contents) pairs and a proof about the list's shapes, so a rewriting pass does
    not enter the pieces by itself: stated as a congruence rule, it does — a buffer read sitting inside a join is then
    evaluated like any other operand.
  • An outlined function reads and writes its buffers through typed references; writing a value and reading it back
    through the same reference returns the value (the two transports along the type equation cancel).
-/
import Idealize.ShloMosaic.Lib.StableHlo
import Idealize.ShloMosaic.PureOps.Ideal

namespace Cert.Join

open Idealize.ShloMosaic Idealize.ShloMosaic.StableHlo

/-- Equal pieces give equal joins (a congruence rule for the two-piece join). -/
@[congr] theorem concatenate_pair_congr {α : Type} {t s₁ s₂ : Shape} (a : Fin t.rank) {x₁ x₁' : s₁.Idx → α} {x₂ x₂' : s₂.Idx → α}
    (h : Shape.Concatenates (([⟨s₁, x₁⟩, ⟨s₂, x₂⟩] : List ((s : Shape) × (s.Idx → α))).map (·.1)) t a)
    (e₁ : x₁ = x₁') (e₂ : x₂ = x₂') :
    concatenate t a [⟨s₁, x₁⟩, ⟨s₂, x₂⟩] h = concatenate t a [⟨s₁, x₁'⟩, ⟨s₂, x₂'⟩] h := by
  subst e₁ e₂; rfl

/-- Reading a typed buffer back right after writing it returns what was written. -/
theorem ofBuf_toBuf {sig : RefSig} {Val : EltTy → Type} {T : BufTy} (x : TRef sig T) (v : T.Contents Val) : x.ofBuf (x.toBuf v) = v := by
  show cast _ (cast _ v) = v
  rw [cast_cast, cast_eq]

end Cert.Join
-- ==== Proof.RefRun.lean ====
/-
  The reference's run, stretch by stretch.

  The reference is a straight line of 159 host operations. Its contents after the line are the fold of the operations'
  results over the launch contents; read at a result buffer all at once, that fold is walked once per use of every
  value. Here the line is cut into nine stretches at points where few values are still to be read (after the
  quadratic's coefficients, after its guards, after the two quotients, after the ray parameter, after the hit points,
  after the unit normal, after the turned normal, after the cosine). For each stretch, from ANY contents in which the
  arguments and the values still to be read are the reference's stages (`val_<buffer>` of the arguments), the contents
  after the stretch have the stretch's own values, those carried through, and the arguments, at their stages. Chaining the
  nine (contents after l₁ ++ l₂ are the contents after l₂ from those after l₁) gives both results at their stages.
-/
import proofs.«123952_j71193377899036_1_alg».proof.Proof.RefRunP
import proofs.«123952_j71193377899036_1_alg».proof.Proof.RefReadP
import proofs.«123952_j71193377899036_1_alg».proof.Proof.LibJoin

noncomputable section

namespace Cert.ReferenceIdeal.RunChain

open Cert.ReferenceIdeal Cert.ReferenceIdeal.Gen Cert.ReferenceIdeal.ValueP Idealize.ShloMosaic Idealize.ShloMosaic.TcCoe Idealize.SL.Sem Idealize.ShloMosaic.StableHlo

variable {F : FTy → Type} [FloatOps F]

/-- The contents after two lines run one after the other. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih (op.result V)

/-! ## The nine stretches -/

/-- Operations 1–24: the four columns and the quadratic's three coefficients. -/
abbrev segA : List (HloOp τ sig (Elt F)) :=
  [ unary main_arg0 main_v0 ((extractStridedSlice S4194304x1 ![0, 0] · slices_S4194304x2_S4194304x1_0_0) : (⟨S4194304x2, .f32⟩ : BufTy).Contents (Elt F) → (⟨S4194304x1, .f32⟩ : BufTy).Contents (Elt F)),
    reshape main_v0 main_v1 rfl shapeCasts_S4194304x1_S4194304,
    unary main_arg0 main_v2 ((extractStridedSlice S4194304x1 ![0, 1] · slices_S4194304x2_S4194304x1_0_1) : (⟨S4194304x2, .f32⟩ : BufTy).Contents (Elt F) → (⟨S4194304x1, .f32⟩ : BufTy).Contents (Elt F)),
    reshape main_v2 main_v3 rfl shapeCasts_S4194304x1_S4194304,
    unary main_arg1 main_v4 ((extractStridedSlice S4194304x1 ![0, 0] · slices_S4194304x2_S4194304x1_0_0) : (⟨S4194304x2, .f32⟩ : BufTy).Contents (Elt F) → (⟨S4194304x1, .f32⟩ : BufTy).Contents (Elt F)),
    reshape main_v4 main_v5 rfl shapeCasts_S4194304x1_S4194304,
    unary main_arg1 main_v6 ((extractStridedSlice S4194304x1 ![0, 1] · slices_S4194304x2_S4194304x1_0_1) : (⟨S4194304x2, .f32⟩ : BufTy).Contents (Elt F) → (⟨S4194304x1, .f32⟩ : BufTy).Contents (Elt F)),
    reshape main_v6 main_v7 rfl shapeCasts_S4194304x1_S4194304,
    nullary main_cst (constant S_ .f32 0x3C23D70A#32),
    unary main_cst main_v8 (broadcastInDim S4194304 ![] bcast_S_S4194304 : (⟨S_, .f32⟩ : BufTy).Contents (Elt F) → (⟨S4194304, .f32⟩ : BufTy).Contents (Elt F)),
    binary main_v8 main_v7 main_v9 (mulf : (⟨S4194304, .f32⟩ : BufTy).Contents (Elt F) → (⟨S4194304, .f32⟩ : BufTy).Contents (Elt F) → (⟨S4194304, .f32⟩ : BufTy).Contents (Elt F)),
    binary main_v9 main_v7 main_v10 (mulf : (⟨S4194304, .f32⟩ : BufTy).Contents (Elt F) → (⟨S4194304, .f32⟩ : BufTy).Contents (Elt F) → (⟨S4194304, .f32⟩ : BufTy).Contents (Elt F)),
    nullary main_cst_0 (constant S_ .f32 0x3CA3D70A#32),
    unary main_cst_0 main_v11 (broadcastInDim S4194304 ![] bcast_S_S4194304 : (⟨S_, .f32⟩ : BufTy).Contents (Elt F) → (⟨S4194304, .f32⟩ : BufTy).Contents (Elt F)),
    binary main_v11 main_v3 main_v12 (mulf : (⟨S4194304, .f32⟩ : BufTy).Contents (Elt F) → (⟨S4194304, .f32⟩ : BufTy).Contents (Elt F) → (⟨S4194304, .f32⟩ : BufTy).Contents (Elt F)),
    binary main_v12 main_v7 main_v13 (mulf : (⟨S4194304, .f32⟩ : BufTy).Contents (Elt F) → (⟨S4194304, .f32⟩ : BufTy).Contents (Elt F) → (⟨S4194304, .f32⟩ : BufTy).Contents (Elt F)),
    binary main_v13 main_v5 main_v14 (subf : (⟨S4194304, .f32⟩ : BufTy).Contents (Elt F) → (⟨S4194304, .f32⟩ : BufTy).Contents (Elt F) → (⟨S4194304, .f32⟩ : BufTy).Contents (Elt F)),
    nullary main_cst_1 (constant S_ .f32 0x3C23D70A#32),
    unary main_cst_1 main_v15 (broadcastInDim S4194304 ![] bcast_S_S4194304 : (⟨S_, .f32⟩ : BufTy).Contents (Elt F) → (⟨S4194304, .f32⟩ : BufTy).Contents (Elt F)),
    binary main_v15 main_v3 main_v16 (mulf : (⟨S4194304, .f32⟩ : BufTy).Contents (Elt F) → (⟨S4194304, .f32⟩ : BufTy).Contents (Elt F) → (⟨S4194304, .f32⟩ : BufTy).Contents (Elt F)),
    binary main_v16 main_v3 main_v17 (mulf : (⟨S4194304, .f32⟩ : BufTy).Contents (Elt F) → (⟨S4194304, .f32⟩ : BufTy).Contents (Elt F) → (⟨S4194304, .f32⟩ : BufTy).Contents (Elt F)),
    unary main_arg2 main_v18 (broadcastInDim S4194304 ![] bcast_S_S4194304 : (⟨S_, .f32⟩ : BufTy).Contents (Elt F) → (⟨S4194304, .f32⟩ : BufTy).Contents (Elt F)),
    binary main_v17 main_v18 main_v19 (addf : (⟨S4194304, .f32⟩ : BufTy).Contents (Elt F) → (⟨S4194304, .f32⟩ : BufTy).Contents (Elt F) → (⟨S4194304, .f32⟩ : BufTy).Contents (Elt F)),
    binary main_v19 main_v1 main_v20 (subf : (⟨S4194304, .f32⟩ : BufTy).Contents (Elt F) → (⟨S4194304, .f32⟩ : BufTy).Contents (Elt F) → (⟨S4194304, .f32⟩ : BufTy).Contents (Elt F)) ]

/-- Operations 25–45: the degeneracy test, the guarded leading coefficient, the root of the discriminant and the sign test. -/
abbrev segB : List (HloOp τ sig (Elt F)) :=
  [ unary main_v10 main_v21 (Host.absf : (⟨S4194304, .f32⟩ : BufTy).Contents (Elt F) → (⟨S4194304, .f32⟩ : BufTy).Contents (Elt F)),
    nullary main_cst_2 (constant S_ .f32 0x2EDBE6FF#32),
    unary main_cst_2 main_v22 (broadcastInDim S4194304 ![] bcast_S_S4194304 : (⟨S_, .f32⟩ : BufTy).Contents (Elt F) → (⟨S4194304, .f32⟩ : BufTy).Contents (Elt F)),
    binary main_v21 main_v22 main_v23 (cmpf .olt : (⟨S4194304, .f32⟩ : BufTy).Contents (Elt F) → (⟨S4194304, .f32⟩ : BufTy).Contents (Elt F) → (⟨S4194304, .i1⟩ : BufTy).Contents (Elt F)),
    nullary main_cst_3 (constant S_ .f32 0x3F800000#32),
    TRef.unary (TRef.of (T := ⟨S_, .f32⟩) main_cst_3) (TRef.of (T := ⟨S_, .f32⟩) main_call0_v0) id,
    TRef.unary (TRef.of (T := ⟨S_, .f32⟩) main_call0_v0) (TRef.of (T := ⟨S4194304, .f32⟩) main_call0_v1) (broadcastInDim S4194304 ![] bcast_S_S4194304),
    TRef.ternary (TRef.of (T := ⟨S4194304, .i1⟩) main_v23) (TRef.of (T := ⟨S4194304, .f32⟩) main_call0_v1) (TRef.of (T := ⟨S4194304, .f32⟩) main_v10) (TRef.of (T := ⟨S4194304, .f32⟩) main_v24) select,
    binary main_v14 main_v14 main_v25 (mulf : (⟨S4194304, .f32⟩ : BufTy).Contents (Elt F) → (⟨S4194304, .f32⟩ : BufTy).Contents (Elt F) → (⟨S4194304, .f32⟩ : BufTy).Contents (Elt F)),
    nullary main_cst_4 (constant S_ .f32 0x40800000#32),
    unary main_cst_4 main_v26 (broadcastInDim S4194304 ![] bcast_S_S4194304 : (⟨S_, .f32⟩ : BufTy).Contents (Elt F) → (⟨S4194304, .f32⟩ : BufTy).Contents (Elt F)),
    binary main_v26 main_v10 main_v27 (mulf : (⟨S4194304, .f32⟩ : BufTy).Contents (Elt F) → (⟨S4194304, .f32⟩ : BufTy).Contents (Elt F) → (⟨S4194304, .f32⟩ : BufTy).Contents (Elt F)),
    binary main_v27 main_v20 main_v28 (mulf : (⟨S4194304, .f32⟩ : BufTy).Contents (Elt F) → (⟨S4194304, .f32⟩ : BufTy).Contents (Elt F) → (⟨S4194304, .f32⟩ : BufTy).Contents (Elt F)),
    binary main_v25 main_v28 main_v29 (subf : (⟨S4194304, .f32⟩ : BufTy).Contents (Elt F) → (⟨S4194304, .f32⟩ : BufTy).Contents (Elt F) → (⟨S4194304, .f32⟩ : BufTy).Contents (Elt F)),
    nullary main_cst_5 (constant S_ .f32 0x00000000#32),
    unary main_cst_5 main_v30 (broadcastInDim S4194304 ![] bcast_S_S4194304 : (⟨S_, .f32⟩ : BufTy).Contents (Elt F) → (⟨S4194304, .f32⟩ : BufTy).Contents (Elt F)),
    binary main_v29 main_v30 main_v31 (maximumf : (⟨S4194304, .f32⟩ : BufTy).Contents (Elt F) → (⟨S4194304, .f32⟩ : BufTy).Contents (Elt F) → (⟨S4194304, .f32⟩ : BufTy).Contents (Elt F)),
    unary main_v31 main_v32 (Host.sqrt : (⟨S4194304, .f32⟩ : BufTy).Contents (Elt F) → (⟨S4194304, .f32⟩ : BufTy).Contents (Elt F)),
    nullary main_cst_6 (constant S_ .f32 0x00000000#32),
    unary main_cst_6 main_v33 (broadcastInDim S4194304 ![] bcast_S_S4194304 : (⟨S_, .f32⟩ : BufTy).Contents (Elt F) → (⟨S4194304, .f32⟩ : BufTy).Contents (Elt F)),
    binary main_v14 main_v33 main_v34 (cmpf .oge : (⟨S4194304, .f32⟩ : BufTy).Contents (Elt F) → (⟨S4194304, .f32⟩ : BufTy).Contents (Elt F) → (⟨S4194304, .i1⟩ : BufTy).Contents (Elt F)) ]

/-- Operations 46–66: the stable root q and the two quotients q / a and c / q. -/
abbrev segC : List (HloOp τ sig (Elt F)) :=
  [ nullary main_cst_7 (constant S_ .f32 0x3F800000#32),
    nullary main_cst_8 (constant S_ .f32 0xBF800000#32),
    TRef.unary (TRef.of (T := ⟨S_, .f32⟩) main_cst_7) (TRef.of (T := ⟨S4194304, .f32⟩) main_call1_v0) (broadcastInDim S4194304 ![] bcast_S_S4194304),
    TRef.unary (TRef.of (T := ⟨S_, .f32⟩) main_cst_8) (TRef.of (T := ⟨S4194304, .f32⟩) main_call1_v1) (broadcastInDim S4194304 ![] bcast_S_S4194304),
    TRef.ternary (TRef.of (T := ⟨S4194304, .i1⟩) main_v34) (TRef.of (T := ⟨S4194304, .f32⟩) main_call1_v0) (TRef.of (T := ⟨S4194304, .f32⟩) main_call1_v1) (TRef.of (T := ⟨S4194304, .f32⟩) main_v35) select,
    unary main_v35 main_v36 (id : (⟨S4194304, .f32⟩ : BufTy).Contents (Elt F) → (⟨S4194304, .f32⟩ : BufTy).Contents (Elt F)),
    binary main_v36 main_v32 main_v37 (mulf : (⟨S4194304, .f32⟩ : BufTy).Contents (Elt F) → (⟨S4194304, .f32⟩ : BufTy).Contents (Elt F) → (⟨S4194304, .f32⟩ : BufTy).Contents (Elt F)),
    binary main_v14 main_v37 main_v38 (addf : (⟨S4194304, .f32⟩ : BufTy).Contents (Elt F) → (⟨S4194304, .f32⟩ : BufTy).Contents (Elt F) → (⟨S4194304, .f32⟩ : BufTy).Contents (Elt F)),
    nullary main_cst_9 (constant S_ .f32 0xBF000000#32),
    unary main_cst_9 main_v39 (broadcastInDim S4194304 ![] bcast_S_S4194304 : (⟨S_, .f32⟩ : BufTy).Contents (Elt F) → (⟨S4194304, .f32⟩ : BufTy).Contents (Elt F)),
    binary main_v39 main_v38 main_v40 (mulf : (⟨S4194304, .f32⟩ : BufTy).Contents (Elt F) → (⟨S4194304, .f32⟩ : BufTy).Contents (Elt F) → (⟨S4194304, .f32⟩ : BufTy).Contents (Elt F)),
    unary main_v40 main_v41 (Host.absf : (⟨S4194304, .f32⟩ : BufTy).Contents (Elt F) → (⟨S4194304, .f32⟩ : BufTy).Contents (Elt F)),
    nullary main_cst_10 (constant S_ .f32 0x2EDBE6FF#32),
    unary main_cst_10 main_v42 (broadcastInDim S4194304 ![] bcast_S_S4194304 : (⟨S_, .f32⟩ : BufTy).Contents (Elt F) → (⟨S4194304, .f32⟩ : BufTy).Contents (Elt F)),
    binary main_v41 main_v42 main_v43 (cmpf .olt : (⟨S4194304, .f32⟩ : BufTy).Contents (Elt F) → (⟨S4194304, .f32⟩ : BufTy).Contents (Elt F) → (⟨S4194304, .i1⟩ : BufTy).Contents (Elt F)),
    nullary main_cst_11 (constant S_ .f32 0x2EDBE6FF#32),
    TRef.unary (TRef.of (T := ⟨S_, .f32⟩) main_cst_11) (TRef.of (T := ⟨S_, .f32⟩) main_call2_v0) id,
    TRef.unary (TRef.of (T := ⟨S_, .f32⟩) main_call2_v0) (TRef.of (T := ⟨S4194304, .f32⟩) main_call2_v1) (broadcastInDim S4194304 ![] bcast_S_S4194304),
    TRef.ternary (TRef.of (T := ⟨S4194304, .i1⟩) main_v43) (TRef.of (T := ⟨S4194304, .f32⟩) main_call2_v1) (TRef.of (T := ⟨S4194304, .f32⟩) main_v40) (TRef.of (T := ⟨S4194304, .f32⟩) main_v44) select,
    binary main_v40 main_v24 main_v45 (Host.divf : (⟨S4194304, .f32⟩ : BufTy).Contents (Elt F) → (⟨S4194304, .f32⟩ : BufTy).Contents (Elt F) → (⟨S4194304, .f32⟩ : BufTy).Contents (Elt F)),
    binary main_v20 main_v44 main_v46 (Host.divf : (⟨S4194304, .f32⟩ : BufTy).Contents (Elt F) → (⟨S4194304, .f32⟩ : BufTy).Contents (Elt F) → (⟨S4194304, .f32⟩ : BufTy).Contents (Elt F)) ]

/-- Operations 67–92: the smaller forward root, the linear root and the ray parameter. -/
abbrev segD : List (HloOp τ sig (Elt F)) :=
  [ nullary main_cst_12 (constant S_ .f32 0x00000000#32),
    unary main_cst_12 main_v47 (broadcastInDim S4194304 ![] bcast_S_S4194304 : (⟨S_, .f32⟩ : BufTy).Contents (Elt F) → (⟨S4194304, .f32⟩ : BufTy).Contents (Elt F)),
    binary main_v45 main_v47 main_v48 (cmpf .ogt : (⟨S4194304, .f32⟩ : BufTy).Contents (Elt F) → (⟨S4194304, .f32⟩ : BufTy).Contents (Elt F) → (⟨S4194304, .i1⟩ : BufTy).Contents (Elt F)),
    nullary main_cst_13 (constant S_ .f32 0x7149F2CA#32),
    TRef.unary (TRef.of (T := ⟨S_, .f32⟩) main_cst_13) (TRef.of (T := ⟨S_, .f32⟩) main_call3_v0) id,
    TRef.unary (TRef.of (T := ⟨S_, .f32⟩) main_call3_v0) (TRef.of (T := ⟨S4194304, .f32⟩) main_call3_v1) (broadcastInDim S4194304 ![] bcast_S_S4194304),
    TRef.ternary (TRef.of (T := ⟨S4194304, .i1⟩) main_v48) (TRef.of (T := ⟨S4194304, .f32⟩) main_v45) (TRef.of (T := ⟨S4194304, .f32⟩) main_call3_v1) (TRef.of (T := ⟨S4194304, .f32⟩) main_v49) select,
    nullary main_cst_14 (constant S_ .f32 0x00000000#32),
    unary main_cst_14 main_v50 (broadcastInDim S4194304 ![] bcast_S_S4194304 : (⟨S_, .f32⟩ : BufTy).Contents (Elt F) → (⟨S4194304, .f32⟩ : BufTy).Contents (Elt F)),
    binary main_v46 main_v50 main_v51 (cmpf .ogt : (⟨S4194304, .f32⟩ : BufTy).Contents (Elt F) → (⟨S4194304, .f32⟩ : BufTy).Contents (Elt F) → (⟨S4194304, .i1⟩ : BufTy).Contents (Elt F)),
    nullary main_cst_15 (constant S_ .f32 0x7149F2CA#32),
    TRef.unary (TRef.of (T := ⟨S_, .f32⟩) main_cst_15) (TRef.of (T := ⟨S_, .f32⟩) main_call4_v0) id,
    TRef.unary (TRef.of (T := ⟨S_, .f32⟩) main_call4_v0) (TRef.of (T := ⟨S4194304, .f32⟩) main_call4_v1) (broadcastInDim S4194304 ![] bcast_S_S4194304),
    TRef.ternary (TRef.of (T := ⟨S4194304, .i1⟩) main_v51) (TRef.of (T := ⟨S4194304, .f32⟩) main_v46) (TRef.of (T := ⟨S4194304, .f32⟩) main_call4_v1) (TRef.of (T := ⟨S4194304, .f32⟩) main_v52) select,
    binary main_v49 main_v52 main_v53 (minimumf : (⟨S4194304, .f32⟩ : BufTy).Contents (Elt F) → (⟨S4194304, .f32⟩ : BufTy).Contents (Elt F) → (⟨S4194304, .f32⟩ : BufTy).Contents (Elt F)),
    unary main_v14 main_v54 (Host.absf : (⟨S4194304, .f32⟩ : BufTy).Contents (Elt F) → (⟨S4194304, .f32⟩ : BufTy).Contents (Elt F)),
    nullary main_cst_16 (constant S_ .f32 0x2EDBE6FF#32),
    unary main_cst_16 main_v55 (broadcastInDim S4194304 ![] bcast_S_S4194304 : (⟨S_, .f32⟩ : BufTy).Contents (Elt F) → (⟨S4194304, .f32⟩ : BufTy).Contents (Elt F)),
    binary main_v54 main_v55 main_v56 (cmpf .olt : (⟨S4194304, .f32⟩ : BufTy).Contents (Elt F) → (⟨S4194304, .f32⟩ : BufTy).Contents (Elt F) → (⟨S4194304, .i1⟩ : BufTy).Contents (Elt F)),
    nullary main_cst_17 (constant S_ .f32 0x2EDBE6FF#32),
    TRef.unary (TRef.of (T := ⟨S_, .f32⟩) main_cst_17) (TRef.of (T := ⟨S_, .f32⟩) main_call5_v0) id,
    TRef.unary (TRef.of (T := ⟨S_, .f32⟩) main_call5_v0) (TRef.of (T := ⟨S4194304, .f32⟩) main_call5_v1) (broadcastInDim S4194304 ![] bcast_S_S4194304),
    TRef.ternary (TRef.of (T := ⟨S4194304, .i1⟩) main_v56) (TRef.of (T := ⟨S4194304, .f32⟩) main_call5_v1) (TRef.of (T := ⟨S4194304, .f32⟩) main_v14) (TRef.of (T := ⟨S4194304, .f32⟩) main_v57) select,
    unary main_v20 main_v58 (Host.negf : (⟨S4194304, .f32⟩ : BufTy).Contents (Elt F) → (⟨S4194304, .f32⟩ : BufTy).Contents (Elt F)),
    binary main_v58 main_v57 main_v59 (Host.divf : (⟨S4194304, .f32⟩ : BufTy).Contents (Elt F) → (⟨S4194304, .f32⟩ : BufTy).Contents (Elt F) → (⟨S4194304, .f32⟩ : BufTy).Contents (Elt F)),
    TRef.ternary (TRef.of (T := ⟨S4194304, .i1⟩) main_v23) (TRef.of (T := ⟨S4194304, .f32⟩) main_v59) (TRef.of (T := ⟨S4194304, .f32⟩) main_v53) (TRef.of (T := ⟨S4194304, .f32⟩) main_v60) select ]

/-- Operations 93–98: the hit points and the hit point's y. -/
abbrev segE : List (HloOp τ sig (Elt F)) :=
  [ unary main_v60 main_v61 (broadcastInDim S4194304x1 ![0] bcast_S4194304_S4194304x1_0 : (⟨S4194304, .f32⟩ : BufTy).Contents (Elt F) → (⟨S4194304x1, .f32⟩ : BufTy).Contents (Elt F)),
    unary main_v61 main_v62 (broadcastInDim S4194304x2 ![0, 1] bcast_S4194304x1_S4194304x2_0_1 : (⟨S4194304x1, .f32⟩ : BufTy).Contents (Elt F) → (⟨S4194304x2, .f32⟩ : BufTy).Contents (Elt F)),
    binary main_v62 main_arg1 main_v63 (mulf : (⟨S4194304x2, .f32⟩ : BufTy).Contents (Elt F) → (⟨S4194304x2, .f32⟩ : BufTy).Contents (Elt F) → (⟨S4194304x2, .f32⟩ : BufTy).Contents (Elt F)),
    binary main_arg0 main_v63 main_v64 (addf : (⟨S4194304x2, .f32⟩ : BufTy).Contents (Elt F) → (⟨S4194304x2, .f32⟩ : BufTy).Contents (Elt F) → (⟨S4194304x2, .f32⟩ : BufTy).Contents (Elt F)),
    unary main_v64 main_v65 ((extractStridedSlice S4194304x1 ![0, 1] · slices_S4194304x2_S4194304x1_0_1) : (⟨S4194304x2, .f32⟩ : BufTy).Contents (Elt F) → (⟨S4194304x1, .f32⟩ : BufTy).Contents (Elt F)),
    reshape main_v65 main_v66 rfl shapeCasts_S4194304x1_S4194304 ]

/-- Operations 99–113: the stacked normal, its row norm and the unit normal. -/
abbrev segF : List (HloOp τ sig (Elt F)) :=
  [ nullary main_cst_18 (constant S_ .f32 0x3F800000#32),
    unary main_cst_18 main_v67 (broadcastInDim S4194304 ![] bcast_S_S4194304 : (⟨S_, .f32⟩ : BufTy).Contents (Elt F) → (⟨S4194304, .f32⟩ : BufTy).Contents (Elt F)),
    nullary main_cst_19 (constant S_ .f32 0xBCA3D70A#32),
    unary main_cst_19 main_v68 (broadcastInDim S4194304 ![] bcast_S_S4194304 : (⟨S_, .f32⟩ : BufTy).Contents (Elt F) → (⟨S4194304, .f32⟩ : BufTy).Contents (Elt F)),
    binary main_v68 main_v66 main_v69 (mulf : (⟨S4194304, .f32⟩ : BufTy).Contents (Elt F) → (⟨S4194304, .f32⟩ : BufTy).Contents (Elt F) → (⟨S4194304, .f32⟩ : BufTy).Contents (Elt F)),
    unary main_v67 main_v70 (broadcastInDim S4194304x1 ![0] bcast_S4194304_S4194304x1_0 : (⟨S4194304, .f32⟩ : BufTy).Contents (Elt F) → (⟨S4194304x1, .f32⟩ : BufTy).Contents (Elt F)),
    unary main_v69 main_v71 (broadcastInDim S4194304x1 ![0] bcast_S4194304_S4194304x1_0 : (⟨S4194304, .f32⟩ : BufTy).Contents (Elt F) → (⟨S4194304x1, .f32⟩ : BufTy).Contents (Elt F)),
    binary main_v70 main_v71 main_v72 ((fun a b => concatenate S4194304x2 1 [⟨S4194304x1, a⟩, ⟨S4194304x1, b⟩] concatenates_S4194304x1_S4194304x1_S4194304x2_d1) : (⟨S4194304x1, .f32⟩ : BufTy).Contents (Elt F) → (⟨S4194304x1, .f32⟩ : BufTy).Contents (Elt F) → (⟨S4194304x2, .f32⟩ : BufTy).Contents (Elt F)),
    TRef.binary (TRef.of (T := ⟨S4194304x2, .f32⟩) main_v72) (TRef.of (T := ⟨S4194304x2, .f32⟩) main_v72) (TRef.of (T := ⟨S4194304x2, .f32⟩) main_call7_v0) mulf,
    TRef.nullary (TRef.of (T := ⟨S_, .f32⟩) main_call7_cst) (constant S_ .f32 0x00000000#32),
    TRef.binary (TRef.of (T := ⟨S4194304x2, .f32⟩) main_call7_v0) (TRef.of (T := ⟨S_, .f32⟩) main_call7_cst) (TRef.of (T := ⟨S4194304, .f32⟩) main_call7_v1) (fun x v => Host.reduceAdd x v reducesTo_S4194304x2_S4194304_d1 h_S_),
    TRef.unary (TRef.of (T := ⟨S4194304, .f32⟩) main_call7_v1) (TRef.of (T := ⟨S4194304x1, .f32⟩) main_call7_v2) (broadcastInDim S4194304x1 ![0] bcast_S4194304_S4194304x1_0),
    TRef.unary (TRef.of (T := ⟨S4194304x1, .f32⟩) main_call7_v2) (TRef.of (T := ⟨S4194304x1, .f32⟩) main_v73) Host.sqrt,
    unary main_v73 main_v74 (broadcastInDim S4194304x2 ![0, 1] bcast_S4194304x1_S4194304x2_0_1 : (⟨S4194304x1, .f32⟩ : BufTy).Contents (Elt F) → (⟨S4194304x2, .f32⟩ : BufTy).Contents (Elt F)),
    binary main_v72 main_v74 main_v75 (Host.divf : (⟨S4194304x2, .f32⟩ : BufTy).Contents (Elt F) → (⟨S4194304x2, .f32⟩ : BufTy).Contents (Elt F) → (⟨S4194304x2, .f32⟩ : BufTy).Contents (Elt F)) ]

/-- Operations 114–123: normal · direction and the normal turned against the ray. -/
abbrev segG : List (HloOp τ sig (Elt F)) :=
  [ binary main_v75 main_arg1 main_v76 (mulf : (⟨S4194304x2, .f32⟩ : BufTy).Contents (Elt F) → (⟨S4194304x2, .f32⟩ : BufTy).Contents (Elt F) → (⟨S4194304x2, .f32⟩ : BufTy).Contents (Elt F)),
    nullary main_cst_20 (constant S_ .f32 0x00000000#32),
    binary main_v76 main_cst_20 main_v77 ((fun x v => Host.reduceAdd x v reducesTo_S4194304x2_S4194304_d1 h_S_) : (⟨S4194304x2, .f32⟩ : BufTy).Contents (Elt F) → (⟨S_, .f32⟩ : BufTy).Contents (Elt F) → (⟨S4194304, .f32⟩ : BufTy).Contents (Elt F)),
    nullary main_cst_21 (constant S_ .f32 0x00000000#32),
    unary main_cst_21 main_v78 (broadcastInDim S4194304 ![] bcast_S_S4194304 : (⟨S_, .f32⟩ : BufTy).Contents (Elt F) → (⟨S4194304, .f32⟩ : BufTy).Contents (Elt F)),
    binary main_v77 main_v78 main_v79 (cmpf .ogt : (⟨S4194304, .f32⟩ : BufTy).Contents (Elt F) → (⟨S4194304, .f32⟩ : BufTy).Contents (Elt F) → (⟨S4194304, .i1⟩ : BufTy).Contents (Elt F)),
    unary main_v79 main_v80 (broadcastInDim S4194304x1 ![0] bcast_S4194304_S4194304x1_0 : (⟨S4194304, .i1⟩ : BufTy).Contents (Elt F) → (⟨S4194304x1, .i1⟩ : BufTy).Contents (Elt F)),
    unary main_v75 main_v81 (Host.negf : (⟨S4194304x2, .f32⟩ : BufTy).Contents (Elt F) → (⟨S4194304x2, .f32⟩ : BufTy).Contents (Elt F)),
    TRef.unary (TRef.of (T := ⟨S4194304x1, .i1⟩) main_v80) (TRef.of (T := ⟨S4194304x2, .i1⟩) main_call8_v0) (broadcastInDim S4194304x2 ![0, 1] bcast_S4194304x1_S4194304x2_0_1),
    TRef.ternary (TRef.of (T := ⟨S4194304x2, .i1⟩) main_call8_v0) (TRef.of (T := ⟨S4194304x2, .f32⟩) main_v81) (TRef.of (T := ⟨S4194304x2, .f32⟩) main_v75) (TRef.of (T := ⟨S4194304x2, .f32⟩) main_v82) select ]

/-- Operations 124–134: the unit direction and the cosine of the incidence angle. -/
abbrev segH : List (HloOp τ sig (Elt F)) :=
  [ TRef.binary (TRef.of (T := ⟨S4194304x2, .f32⟩) main_arg1) (TRef.of (T := ⟨S4194304x2, .f32⟩) main_arg1) (TRef.of (T := ⟨S4194304x2, .f32⟩) main_call9_v0) mulf,
    TRef.nullary (TRef.of (T := ⟨S_, .f32⟩) main_call9_cst) (constant S_ .f32 0x00000000#32),
    TRef.binary (TRef.of (T := ⟨S4194304x2, .f32⟩) main_call9_v0) (TRef.of (T := ⟨S_, .f32⟩) main_call9_cst) (TRef.of (T := ⟨S4194304, .f32⟩) main_call9_v1) (fun x v => Host.reduceAdd x v reducesTo_S4194304x2_S4194304_d1 h_S_),
    TRef.unary (TRef.of (T := ⟨S4194304, .f32⟩) main_call9_v1) (TRef.of (T := ⟨S4194304x1, .f32⟩) main_call9_v2) (broadcastInDim S4194304x1 ![0] bcast_S4194304_S4194304x1_0),
    TRef.unary (TRef.of (T := ⟨S4194304x1, .f32⟩) main_call9_v2) (TRef.of (T := ⟨S4194304x1, .f32⟩) main_v83) Host.sqrt,
    unary main_v83 main_v84 (broadcastInDim S4194304x2 ![0, 1] bcast_S4194304x1_S4194304x2_0_1 : (⟨S4194304x1, .f32⟩ : BufTy).Contents (Elt F) → (⟨S4194304x2, .f32⟩ : BufTy).Contents (Elt F)),
    binary main_arg1 main_v84 main_v85 (Host.divf : (⟨S4194304x2, .f32⟩ : BufTy).Contents (Elt F) → (⟨S4194304x2, .f32⟩ : BufTy).Contents (Elt F) → (⟨S4194304x2, .f32⟩ : BufTy).Contents (Elt F)),
    binary main_v82 main_v85 main_v86 (mulf : (⟨S4194304x2, .f32⟩ : BufTy).Contents (Elt F) → (⟨S4194304x2, .f32⟩ : BufTy).Contents (Elt F) → (⟨S4194304x2, .f32⟩ : BufTy).Contents (Elt F)),
    nullary main_cst_22 (constant S_ .f32 0x00000000#32),
    binary main_v86 main_cst_22 main_v87 ((fun x v => Host.reduceAdd x v reducesTo_S4194304x2_S4194304_d1 h_S_) : (⟨S4194304x2, .f32⟩ : BufTy).Contents (Elt F) → (⟨S_, .f32⟩ : BufTy).Contents (Elt F) → (⟨S4194304, .f32⟩ : BufTy).Contents (Elt F)),
    unary main_v87 main_v88 (Host.negf : (⟨S4194304, .f32⟩ : BufTy).Contents (Elt F) → (⟨S4194304, .f32⟩ : BufTy).Contents (Elt F)) ]

/-- Operations 135–159: the refraction. -/
abbrev segI : List (HloOp τ sig (Elt F)) :=
  [ binary main_v88 main_v88 main_v89 (mulf : (⟨S4194304, .f32⟩ : BufTy).Contents (Elt F) → (⟨S4194304, .f32⟩ : BufTy).Contents (Elt F) → (⟨S4194304, .f32⟩ : BufTy).Contents (Elt F)),
    nullary main_cst_23 (constant S_ .f32 0x3F800000#32),
    unary main_cst_23 main_v90 (broadcastInDim S4194304 ![] bcast_S_S4194304 : (⟨S_, .f32⟩ : BufTy).Contents (Elt F) → (⟨S4194304, .f32⟩ : BufTy).Contents (Elt F)),
    binary main_v90 main_v89 main_v91 (subf : (⟨S4194304, .f32⟩ : BufTy).Contents (Elt F) → (⟨S4194304, .f32⟩ : BufTy).Contents (Elt F) → (⟨S4194304, .f32⟩ : BufTy).Contents (Elt F)),
    nullary main_cst_24 (constant S_ .f32 0x3EE38E39#32),
    unary main_cst_24 main_v92 (broadcastInDim S4194304 ![] bcast_S_S4194304 : (⟨S_, .f32⟩ : BufTy).Contents (Elt F) → (⟨S4194304, .f32⟩ : BufTy).Contents (Elt F)),
    binary main_v92 main_v91 main_v93 (mulf : (⟨S4194304, .f32⟩ : BufTy).Contents (Elt F) → (⟨S4194304, .f32⟩ : BufTy).Contents (Elt F) → (⟨S4194304, .f32⟩ : BufTy).Contents (Elt F)),
    nullary main_cst_25 (constant S_ .f32 0x3F800000#32),
    unary main_cst_25 main_v94 (broadcastInDim S4194304 ![] bcast_S_S4194304 : (⟨S_, .f32⟩ : BufTy).Contents (Elt F) → (⟨S4194304, .f32⟩ : BufTy).Contents (Elt F)),
    binary main_v94 main_v93 main_v95 (subf : (⟨S4194304, .f32⟩ : BufTy).Contents (Elt F) → (⟨S4194304, .f32⟩ : BufTy).Contents (Elt F) → (⟨S4194304, .f32⟩ : BufTy).Contents (Elt F)),
    nullary main_cst_26 (constant S_ .f32 0x00000000#32),
    unary main_cst_26 main_v96 (broadcastInDim S4194304 ![] bcast_S_S4194304 : (⟨S_, .f32⟩ : BufTy).Contents (Elt F) → (⟨S4194304, .f32⟩ : BufTy).Contents (Elt F)),
    binary main_v95 main_v96 main_v97 (maximumf : (⟨S4194304, .f32⟩ : BufTy).Contents (Elt F) → (⟨S4194304, .f32⟩ : BufTy).Contents (Elt F) → (⟨S4194304, .f32⟩ : BufTy).Contents (Elt F)),
    nullary main_cst_27 (constant S_ .f32 0x3F2AAAAB#32),
    unary main_cst_27 main_v98 (broadcastInDim S4194304x2 ![] bcast_S_S4194304x2 : (⟨S_, .f32⟩ : BufTy).Contents (Elt F) → (⟨S4194304x2, .f32⟩ : BufTy).Contents (Elt F)),
    binary main_v98 main_v85 main_v99 (mulf : (⟨S4194304x2, .f32⟩ : BufTy).Contents (Elt F) → (⟨S4194304x2, .f32⟩ : BufTy).Contents (Elt F) → (⟨S4194304x2, .f32⟩ : BufTy).Contents (Elt F)),
    nullary main_cst_28 (constant S_ .f32 0x3F2AAAAB#32),
    unary main_cst_28 main_v100 (broadcastInDim S4194304 ![] bcast_S_S4194304 : (⟨S_, .f32⟩ : BufTy).Contents (Elt F) → (⟨S4194304, .f32⟩ : BufTy).Contents (Elt F)),
    binary main_v100 main_v88 main_v101 (mulf : (⟨S4194304, .f32⟩ : BufTy).Contents (Elt F) → (⟨S4194304, .f32⟩ : BufTy).Contents (Elt F) → (⟨S4194304, .f32⟩ : BufTy).Contents (Elt F)),
    unary main_v97 main_v102 (Host.sqrt : (⟨S4194304, .f32⟩ : BufTy).Contents (Elt F) → (⟨S4194304, .f32⟩ : BufTy).Contents (Elt F)),
    binary main_v101 main_v102 main_v103 (subf : (⟨S4194304, .f32⟩ : BufTy).Contents (Elt F) → (⟨S4194304, .f32⟩ : BufTy).Contents (Elt F) → (⟨S4194304, .f32⟩ : BufTy).Contents (Elt F)),
    unary main_v103 main_v104 (broadcastInDim S4194304x1 ![0] bcast_S4194304_S4194304x1_0 : (⟨S4194304, .f32⟩ : BufTy).Contents (Elt F) → (⟨S4194304x1, .f32⟩ : BufTy).Contents (Elt F)),
    unary main_v104 main_v105 (broadcastInDim S4194304x2 ![0, 1] bcast_S4194304x1_S4194304x2_0_1 : (⟨S4194304x1, .f32⟩ : BufTy).Contents (Elt F) → (⟨S4194304x2, .f32⟩ : BufTy).Contents (Elt F)),
    binary main_v105 main_v82 main_v106 (mulf : (⟨S4194304x2, .f32⟩ : BufTy).Contents (Elt F) → (⟨S4194304x2, .f32⟩ : BufTy).Contents (Elt F) → (⟨S4194304x2, .f32⟩ : BufTy).Contents (Elt F)),
    binary main_v99 main_v106 main_v107 (addf : (⟨S4194304x2, .f32⟩ : BufTy).Contents (Elt F) → (⟨S4194304x2, .f32⟩ : BufTy).Contents (Elt F) → (⟨S4194304x2, .f32⟩ : BufTy).Contents (Elt F)) ]

set_option maxRecDepth 8192 in
/-- The line is the nine stretches in order. -/
theorem ops_eq : (ops : List (HloOp τ sig (Elt F))) = segA ++ (segB ++ (segC ++ (segD ++ (segE ++ (segF ++ (segG ++ (segH ++ segI))))))) := rfl

/-! ## Each stretch, from any contents -/

variable (W : Valuation τ sig (Elt F))
variable (x0 x1 : (⟨S4194304x2, .f32⟩ : BufTy).Contents (Elt F)) (x2 : (⟨S_, .f32⟩ : BufTy).Contents (Elt F))

set_option maxRecDepth 8192 in
theorem stretchA (h0 : W (Proc.devRef .tc main_arg0) = x0)
    (h1 : W (Proc.devRef .tc main_arg1) = x1)
    (h2 : W (Proc.devRef .tc main_arg2) = x2) :
    after (segA (F := F)) W (Proc.devRef .tc main_arg0) = x0
    ∧ after (segA (F := F)) W (Proc.devRef .tc main_arg1) = x1
    ∧ after (segA (F := F)) W (Proc.devRef .tc main_arg2) = x2
    ∧ after (segA (F := F)) W (Proc.devRef .tc main_v10) = Cert.ReferenceIdeal.ReadP.val_main_v10 (F := F) x1
    ∧ after (segA (F := F)) W (Proc.devRef .tc main_v14) = Cert.ReferenceIdeal.ReadP.val_main_v14 (F := F) x0 x1
    ∧ after (segA (F := F)) W (Proc.devRef .tc main_v20) = Cert.ReferenceIdeal.ReadP.val_main_v20 (F := F) x0 x2 := by
  refine ⟨?_, ?_, ?_, ?_, ?_, ?_⟩ <;> after_results_simp <;> simp only [h0, h1, h2] <;> rfl

set_option maxRecDepth 8192 in
theorem stretchB (h0 : W (Proc.devRef .tc main_arg0) = x0)
    (h1 : W (Proc.devRef .tc main_arg1) = x1)
    (h2 : W (Proc.devRef .tc main_arg2) = x2)
    (h10 : W (Proc.devRef .tc main_v10) = Cert.ReferenceIdeal.ReadP.val_main_v10 (F := F) x1)
    (h14 : W (Proc.devRef .tc main_v14) = Cert.ReferenceIdeal.ReadP.val_main_v14 (F := F) x0 x1)
    (h20 : W (Proc.devRef .tc main_v20) = Cert.ReferenceIdeal.ReadP.val_main_v20 (F := F) x0 x2) :
    after (segB (F := F)) W (Proc.devRef .tc main_arg0) = x0
    ∧ after (segB (F := F)) W (Proc.devRef .tc main_arg1) = x1
    ∧ after (segB (F := F)) W (Proc.devRef .tc main_arg2) = x2
    ∧ after (segB (F := F)) W (Proc.devRef .tc main_v14) = Cert.ReferenceIdeal.ReadP.val_main_v14 (F := F) x0 x1
    ∧ after (segB (F := F)) W (Proc.devRef .tc main_v20) = Cert.ReferenceIdeal.ReadP.val_main_v20 (F := F) x0 x2
    ∧ after (segB (F := F)) W (Proc.devRef .tc main_v23) = Cert.ReferenceIdeal.ReadP.val_main_v23 (F := F) x1
    ∧ after (segB (F := F)) W (Proc.devRef .tc main_v24) = Cert.ReferenceIdeal.ReadP.val_main_v24 (F := F) x1
    ∧ after (segB (F := F)) W (Proc.devRef .tc main_v32) = Cert.ReferenceIdeal.ReadP.val_main_v32 (F := F) x0 x1 x2
    ∧ after (segB (F := F)) W (Proc.devRef .tc main_v34) = Cert.ReferenceIdeal.ReadP.val_main_v34 (F := F) x0 x1 := by
  refine ⟨?_, ?_, ?_, ?_, ?_, ?_, ?_, ?_, ?_⟩ <;> after_results_simp <;> simp only [h0, h1, h2, h10, h14, h20] <;> rfl

set_option maxRecDepth 8192 in
theorem stretchC (h0 : W (Proc.devRef .tc main_arg0) = x0)
    (h1 : W (Proc.devRef .tc main_arg1) = x1)
    (h2 : W (Proc.devRef .tc main_arg2) = x2)
    (h14 : W (Proc.devRef .tc main_v14) = Cert.ReferenceIdeal.ReadP.val_main_v14 (F := F) x0 x1)
    (h20 : W (Proc.devRef .tc main_v20) = Cert.ReferenceIdeal.ReadP.val_main_v20 (F := F) x0 x2)
    (h23 : W (Proc.devRef .tc main_v23) = Cert.ReferenceIdeal.ReadP.val_main_v23 (F := F) x1)
    (h24 : W (Proc.devRef .tc main_v24) = Cert.ReferenceIdeal.ReadP.val_main_v24 (F := F) x1)
    (h32 : W (Proc.devRef .tc main_v32) = Cert.ReferenceIdeal.ReadP.val_main_v32 (F := F) x0 x1 x2)
    (h34 : W (Proc.devRef .tc main_v34) = Cert.ReferenceIdeal.ReadP.val_main_v34 (F := F) x0 x1) :
    after (segC (F := F)) W (Proc.devRef .tc main_arg0) = x0
    ∧ after (segC (F := F)) W (Proc.devRef .tc main_arg1) = x1
    ∧ after (segC (F := F)) W (Proc.devRef .tc main_arg2) = x2
    ∧ after (segC (F := F)) W (Proc.devRef .tc main_v14) = Cert.ReferenceIdeal.ReadP.val_main_v14 (F := F) x0 x1
    ∧ after (segC (F := F)) W (Proc.devRef .tc main_v20) = Cert.ReferenceIdeal.ReadP.val_main_v20 (F := F) x0 x2
    ∧ after (segC (F := F)) W (Proc.devRef .tc main_v23) = Cert.ReferenceIdeal.ReadP.val_main_v23 (F := F) x1
    ∧ after (segC (F := F)) W (Proc.devRef .tc main_v45) = Cert.ReferenceIdeal.ReadP.val_main_v45 (F := F) x0 x1 x2
    ∧ after (segC (F := F)) W (Proc.devRef .tc main_v46) = Cert.ReferenceIdeal.ReadP.val_main_v46 (F := F) x0 x1 x2 := by
  refine ⟨?_, ?_, ?_, ?_, ?_, ?_, ?_, ?_⟩ <;> after_results_simp <;> simp only [h0, h1, h2, h14, h20, h23, h24, h32, h34] <;> rfl

set_option maxRecDepth 8192 in
theorem stretchD (h0 : W (Proc.devRef .tc main_arg0) = x0)
    (h1 : W (Proc.devRef .tc main_arg1) = x1)
    (h2 : W (Proc.devRef .tc main_arg2) = x2)
    (h14 : W (Proc.devRef .tc main_v14) = Cert.ReferenceIdeal.ReadP.val_main_v14 (F := F) x0 x1)
    (h20 : W (Proc.devRef .tc main_v20) = Cert.ReferenceIdeal.ReadP.val_main_v20 (F := F) x0 x2)
    (h23 : W (Proc.devRef .tc main_v23) = Cert.ReferenceIdeal.ReadP.val_main_v23 (F := F) x1)
    (h45 : W (Proc.devRef .tc main_v45) = Cert.ReferenceIdeal.ReadP.val_main_v45 (F := F) x0 x1 x2)
    (h46 : W (Proc.devRef .tc main_v46) = Cert.ReferenceIdeal.ReadP.val_main_v46 (F := F) x0 x1 x2) :
    after (segD (F := F)) W (Proc.devRef .tc main_arg0) = x0
    ∧ after (segD (F := F)) W (Proc.devRef .tc main_arg1) = x1
    ∧ after (segD (F := F)) W (Proc.devRef .tc main_arg2) = x2
    ∧ after (segD (F := F)) W (Proc.devRef .tc main_v60) = Cert.ReferenceIdeal.ReadP.val_main_v60 (F := F) x0 x1 x2 := by
  refine ⟨?_, ?_, ?_, ?_⟩ <;> after_results_simp <;> simp only [h0, h1, h2, h14, h20, h23, h45, h46] <;> rfl

set_option maxRecDepth 8192 in
theorem stretchE (h0 : W (Proc.devRef .tc main_arg0) = x0)
    (h1 : W (Proc.devRef .tc main_arg1) = x1)
    (h2 : W (Proc.devRef .tc main_arg2) = x2)
    (h60 : W (Proc.devRef .tc main_v60) = Cert.ReferenceIdeal.ReadP.val_main_v60 (F := F) x0 x1 x2) :
    after (segE (F := F)) W (Proc.devRef .tc main_arg0) = x0
    ∧ after (segE (F := F)) W (Proc.devRef .tc main_arg1) = x1
    ∧ after (segE (F := F)) W (Proc.devRef .tc main_arg2) = x2
    ∧ after (segE (F := F)) W (Proc.devRef .tc main_v64) = Cert.ReferenceIdeal.ReadP.val_main_v64 (F := F) x0 x1 x2
    ∧ after (segE (F := F)) W (Proc.devRef .tc main_v66) = Cert.ReferenceIdeal.ReadP.val_main_v66 (F := F) x0 x1 x2 := by
  refine ⟨?_, ?_, ?_, ?_, ?_⟩ <;> after_results_simp <;> simp only [h0, h1, h2, h60] <;> rfl

set_option maxRecDepth 8192 in
theorem stretchF (h0 : W (Proc.devRef .tc main_arg0) = x0)
    (h1 : W (Proc.devRef .tc main_arg1) = x1)
    (h2 : W (Proc.devRef .tc main_arg2) = x2)
    (h64 : W (Proc.devRef .tc main_v64) = Cert.ReferenceIdeal.ReadP.val_main_v64 (F := F) x0 x1 x2)
    (h66 : W (Proc.devRef .tc main_v66) = Cert.ReferenceIdeal.ReadP.val_main_v66 (F := F) x0 x1 x2) :
    after (segF (F := F)) W (Proc.devRef .tc main_arg0) = x0
    ∧ after (segF (F := F)) W (Proc.devRef .tc main_arg1) = x1
    ∧ after (segF (F := F)) W (Proc.devRef .tc main_arg2) = x2
    ∧ after (segF (F := F)) W (Proc.devRef .tc main_v64) = Cert.ReferenceIdeal.ReadP.val_main_v64 (F := F) x0 x1 x2
    ∧ after (segF (F := F)) W (Proc.devRef .tc main_v75) = Cert.ReferenceIdeal.ReadP.val_main_v75 (F := F) x0 x1 x2 := by
  refine ⟨?_, ?_, ?_, ?_, ?_⟩ <;> after_results_simp <;> simp only [h0, h1, h2, h64, h66] <;> rfl

set_option maxRecDepth 8192 in
theorem stretchG (h0 : W (Proc.devRef .tc main_arg0) = x0)
    (h1 : W (Proc.devRef .tc main_arg1) = x1)
    (h2 : W (Proc.devRef .tc main_arg2) = x2)
    (h64 : W (Proc.devRef .tc main_v64) = Cert.ReferenceIdeal.ReadP.val_main_v64 (F := F) x0 x1 x2)
    (h75 : W (Proc.devRef .tc main_v75) = Cert.ReferenceIdeal.ReadP.val_main_v75 (F := F) x0 x1 x2) :
    after (segG (F := F)) W (Proc.devRef .tc main_arg0) = x0
    ∧ after (segG (F := F)) W (Proc.devRef .tc main_arg1) = x1
    ∧ after (segG (F := F)) W (Proc.devRef .tc main_arg2) = x2
    ∧ after (segG (F := F)) W (Proc.devRef .tc main_v64) = Cert.ReferenceIdeal.ReadP.val_main_v64 (F := F) x0 x1 x2
    ∧ after (segG (F := F)) W (Proc.devRef .tc main_v82) = Cert.ReferenceIdeal.ReadP.val_main_v82 (F := F) x0 x1 x2 := by
  refine ⟨?_, ?_, ?_, ?_, ?_⟩ <;> after_results_simp <;> simp only [h0, h1, h2, h64, h75] <;> rfl

set_option maxRecDepth 8192 in
theorem stretchH (h0 : W (Proc.devRef .tc main_arg0) = x0)
    (h1 : W (Proc.devRef .tc main_arg1) = x1)
    (h2 : W (Proc.devRef .tc main_arg2) = x2)
    (h64 : W (Proc.devRef .tc main_v64) = Cert.ReferenceIdeal.ReadP.val_main_v64 (F := F) x0 x1 x2)
    (h82 : W (Proc.devRef .tc main_v82) = Cert.ReferenceIdeal.ReadP.val_main_v82 (F := F) x0 x1 x2) :
    after (segH (F := F)) W (Proc.devRef .tc main_arg0) = x0
    ∧ after (segH (F := F)) W (Proc.devRef .tc main_arg1) = x1
    ∧ after (segH (F := F)) W (Proc.devRef .tc main_arg2) = x2
    ∧ after (segH (F := F)) W (Proc.devRef .tc main_v64) = Cert.ReferenceIdeal.ReadP.val_main_v64 (F := F) x0 x1 x2
    ∧ after (segH (F := F)) W (Proc.devRef .tc main_v82) = Cert.ReferenceIdeal.ReadP.val_main_v82 (F := F) x0 x1 x2
    ∧ after (segH (F := F)) W (Proc.devRef .tc main_v85) = Cert.ReferenceIdeal.ReadP.val_main_v85 (F := F) x1
    ∧ after (segH (F := F)) W (Proc.devRef .tc main_v88) = Cert.ReferenceIdeal.ReadP.val_main_v88 (F := F) x0 x1 x2 := by
  refine ⟨?_, ?_, ?_, ?_, ?_, ?_, ?_⟩ <;> after_results_simp <;> simp only [h0, h1, h2, h64, h82] <;> rfl

set_option maxRecDepth 8192 in
theorem stretchI (h0 : W (Proc.devRef .tc main_arg0) = x0)
    (h1 : W (Proc.devRef .tc main_arg1) = x1)
    (h2 : W (Proc.devRef .tc main_arg2) = x2)
    (h64 : W (Proc.devRef .tc main_v64) = Cert.ReferenceIdeal.ReadP.val_main_v64 (F := F) x0 x1 x2)
    (h82 : W (Proc.devRef .tc main_v82) = Cert.ReferenceIdeal.ReadP.val_main_v82 (F := F) x0 x1 x2)
    (h85 : W (Proc.devRef .tc main_v85) = Cert.ReferenceIdeal.ReadP.val_main_v85 (F := F) x1)
    (h88 : W (Proc.devRef .tc main_v88) = Cert.ReferenceIdeal.ReadP.val_main_v88 (F := F) x0 x1 x2) :
    after (segI (F := F)) W (Proc.devRef .tc main_arg0) = x0
    ∧ after (segI (F := F)) W (Proc.devRef .tc main_arg1) = x1
    ∧ after (segI (F := F)) W (Proc.devRef .tc main_arg2) = x2
    ∧ after (segI (F := F)) W (Proc.devRef .tc main_v64) = Cert.ReferenceIdeal.ReadP.val_main_v64 (F := F) x0 x1 x2
    ∧ after (segI (F := F)) W (Proc.devRef .tc main_v107) = Cert.ReferenceIdeal.ReadP.val_main_v107 (F := F) x0 x1 x2 := by
  refine ⟨?_, ?_, ?_, ?_, ?_⟩ <;> after_results_simp <;> simp only [h0, h1, h2, h64, h82, h85, h88] <;> rfl

/-! ## The chain and the run -/

/-- From any contents, both results after the whole line are the reference's stages of the arguments as those contents
    hold them, and the arguments are as they were. -/
theorem chain (V : Valuation τ sig (Elt F)) :
    after (ops (F := F)) V (Proc.devRef .tc main_v64)
        = Cert.ReferenceIdeal.ReadP.val_main_v64 (F := F) (V (Proc.devRef .tc main_arg0)) (V (Proc.devRef .tc main_arg1)) (V (Proc.devRef .tc main_arg2))
    ∧ after (ops (F := F)) V (Proc.devRef .tc main_v107)
        = Cert.ReferenceIdeal.ReadP.val_main_v107 (F := F) (V (Proc.devRef .tc main_arg0)) (V (Proc.devRef .tc main_arg1)) (V (Proc.devRef .tc main_arg2))
    ∧ after (ops (F := F)) V (Proc.devRef .tc main_arg0) = V (Proc.devRef .tc main_arg0)
    ∧ after (ops (F := F)) V (Proc.devRef .tc main_arg1) = V (Proc.devRef .tc main_arg1)
    ∧ after (ops (F := F)) V (Proc.devRef .tc main_arg2) = V (Proc.devRef .tc main_arg2) := by
  obtain ⟨a0, a1, a2, a10, a14, a20⟩ := stretchA V _ _ _ rfl rfl rfl
  obtain ⟨b0, b1, b2, b14, b20, b23, b24, b32, b34⟩ := stretchB _ _ _ _ a0 a1 a2 a10 a14 a20
  obtain ⟨c0, c1, c2, c14, c20, c23, c45, c46⟩ := stretchC _ _ _ _ b0 b1 b2 b14 b20 b23 b24 b32 b34
  obtain ⟨d0, d1, d2, d60⟩ := stretchD _ _ _ _ c0 c1 c2 c14 c20 c23 c45 c46
  obtain ⟨e0, e1, e2, e64, e66⟩ := stretchE _ _ _ _ d0 d1 d2 d60
  obtain ⟨f0, f1, f2, f64, f75⟩ := stretchF _ _ _ _ e0 e1 e2 e64 e66
  obtain ⟨g0, g1, g2, g64, g82⟩ := stretchG _ _ _ _ f0 f1 f2 f64 f75
  obtain ⟨k0, k1, k2, k64, k82, k85, k88⟩ := stretchH _ _ _ _ g0 g1 g2 g64 g82
  obtain ⟨i0, i1, i2, i64, i107⟩ := stretchI _ _ _ _ k0 k1 k2 k64 k82 k85 k88
  rw [ops_eq, after_append, after_append, after_append, after_append, after_append, after_append, after_append, after_append]
  exact ⟨i64, i107, i0, i1, i2⟩

/-- On every device, for any float values, from any memory with zero counters: every weakly fair execution of the
    reference terminates with both results at their stages of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v64) = Cert.ReferenceIdeal.ReadP.val_main_v64 (F := F) (m ((c.tc : Thread nD τ).loc main_arg0)) (m ((c.tc : Thread nD τ).loc main_arg1)) (m ((c.tc : Thread nD τ).loc main_arg2))
      ∧ r.2.mem ((c.tc : Thread nD τ).loc main_v107) = Cert.ReferenceIdeal.ReadP.val_main_v107 (F := F) (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
      ⟨(h c main_v64).trans (chain (launchContents m c)).1, (h c main_v107).trans (chain (launchContents m c)).2.1,
        (h c main_arg0).trans (chain (launchContents m c)).2.2.1, (h c main_arg1).trans (chain (launchContents m c)).2.2.2.1,
        (h c main_arg2).trans (chain (launchContents m c)).2.2.2.2⟩)
    (run_seq scopedRefs_eq scopedSems_eq defs main (fun _ => ops) main_eq (fun _ => ops_sub) m ρ)

end Cert.ReferenceIdeal.RunChain

end
-- ==== Proof.RefHit.lean ====
/-
  The reference, ray by ray, up to the hit points: at a ray's index each of its stages is the ray function's stage.

  The reference slices the origins' and the directions' columns into four [N] arrays, computes the ray parameter on
  them elementwise, and forms the hit points on the [N, 2] arrays by broadcasting the parameter along the columns.
  Read at ray n every stage is a scalar operation of the stages before it at ray n, the same operations in the same
  order as `Cert.Ray` names; on the extended reals the host's spellings of absolute value, quotient and square root
  are the kernel's, and its negation −c is the kernel's 0 − c.
-/
import proofs.«123952_j71193377899036_1_alg».proof.Proof.RefReadP
import proofs.«123952_j71193377899036_1_alg».proof.Proof.Rays

noncomputable section

namespace Cert.ReferenceIdeal.RayRef

open Cert.ReferenceIdeal Cert.ReferenceIdeal.ReadP Idealize.ShloMosaic Idealize.ShloMosaic.ValueIdx Cert.Ray

/-- On the extended reals the host's negation is the difference from the zero word. -/
theorem hostNeg_eq (c : Ideal .f32) : FloatOps.hostNegf c = FloatOps.subf (lit (F := Ideal) 0x00000000#32) c := by
  show -c = Ideal.ofBits .f32 0x00000000#32 - c
  rw [Ideal.ofBits_zero_f32, zero_sub]

variable (x0 x1 : (⟨S4194304x2, .f32⟩ : BufTy).Contents (Elt Ideal)) (x2 : (⟨S_, .f32⟩ : BufTy).Contents (Elt Ideal))
variable (n : Fin 4194304)

/-! ## The four columns -/

theorem ox_at : val_main_v1 (F := Ideal) x0 (ix1 n) = x0 (ix2 n (0 : Fin 2)) := by
  rw [val_main_v1_apply, val_main_v0_apply]
  exact congrArg x0 (funext fun a => Fin.ext (by match a with | ⟨0, _⟩ => exact Nat.div_one _ | ⟨1, _⟩ => rfl))
theorem oy_at : val_main_v3 (F := Ideal) x0 (ix1 n) = x0 (ix2 n (1 : Fin 2)) := by
  rw [val_main_v3_apply, val_main_v2_apply]
  exact congrArg x0 (funext fun a => Fin.ext (by match a with | ⟨0, _⟩ => exact Nat.div_one _ | ⟨1, _⟩ => rfl))
theorem dx_at : val_main_v5 (F := Ideal) x1 (ix1 n) = x1 (ix2 n (0 : Fin 2)) := by
  rw [val_main_v5_apply, val_main_v4_apply]
  exact congrArg x1 (funext fun a => Fin.ext (by match a with | ⟨0, _⟩ => exact Nat.div_one _ | ⟨1, _⟩ => rfl))
theorem dy_at : val_main_v7 (F := Ideal) x1 (ix1 n) = x1 (ix2 n (1 : Fin 2)) := by
  rw [val_main_v7_apply, val_main_v6_apply]
  exact congrArg x1 (funext fun a => Fin.ext (by match a with | ⟨0, _⟩ => exact Nat.div_one _ | ⟨1, _⟩ => rfl))

/-! ## The quadratic's coefficients and guards -/

theorem quadA_at : val_main_v10 (F := Ideal) x1 (ix1 n) = quadA (F := Ideal) (x1 (ix2 n (1 : Fin 2))) := by
  simp only [val_main_v10_apply, val_main_v9_apply, val_main_v8_apply, val_main_cst_apply, dy_at]; rfl

theorem quadB_at : val_main_v14 (F := Ideal) x0 x1 (ix1 n)
    = quadB (F := Ideal) (x0 (ix2 n (1 : Fin 2))) (x1 (ix2 n (0 : Fin 2))) (x1 (ix2 n (1 : Fin 2))) := by
  simp only [val_main_v14_apply, val_main_v13_apply, val_main_v12_apply, val_main_v11_apply, val_main_cst_0_apply,
    oy_at, dx_at, dy_at]; rfl

theorem quadC_at : val_main_v20 (F := Ideal) x0 x2 (ix1 n)
    = quadC (F := Ideal) (x0 (ix2 n (0 : Fin 2))) (x0 (ix2 n (1 : Fin 2))) (x2 ix0) := by
  simp only [val_main_v20_apply, val_main_v19_apply, val_main_v18_apply, val_main_v17_apply, val_main_v16_apply,
    val_main_v15_apply, val_main_cst_1_apply, ox_at, oy_at]; rfl

theorem flat_at : val_main_v23 (F := Ideal) x1 (ix1 n) = flat (F := Ideal) (x1 (ix2 n (1 : Fin 2))) := by
  simp only [val_main_v23_apply, val_main_v22_apply, val_main_cst_2_apply, val_main_v21_apply, quadA_at]; rfl

theorem safeA_at : val_main_v24 (F := Ideal) x1 (ix1 n) = safeA (F := Ideal) (x1 (ix2 n (1 : Fin 2))) := by
  simp only [val_main_v24_apply, val_main_call0_v1_apply, val_main_call0_v0_apply, val_main_cst_3_apply, flat_at, quadA_at]; rfl

theorem root_at : val_main_v32 (F := Ideal) x0 x1 x2 (ix1 n)
    = root (F := Ideal) (x0 (ix2 n (0 : Fin 2))) (x0 (ix2 n (1 : Fin 2))) (x1 (ix2 n (0 : Fin 2))) (x1 (ix2 n (1 : Fin 2))) (x2 ix0) := by
  simp only [val_main_v32_apply, val_main_v31_apply, val_main_v30_apply, val_main_cst_5_apply, val_main_v29_apply,
    val_main_v28_apply, val_main_v27_apply, val_main_v26_apply, val_main_cst_4_apply, val_main_v25_apply,
    quadA_at, quadB_at, quadC_at]; rfl

theorem upward_at : val_main_v34 (F := Ideal) x0 x1 (ix1 n)
    = upward (F := Ideal) (x0 (ix2 n (1 : Fin 2))) (x1 (ix2 n (0 : Fin 2))) (x1 (ix2 n (1 : Fin 2))) := by
  simp only [val_main_v34_apply, val_main_v33_apply, val_main_cst_6_apply, quadB_at]; rfl

/-! ## The ray parameter, the hit points and the hit point's y -/

theorem hit_at : val_main_v60 (F := Ideal) x0 x1 x2 (ix1 n)
    = hit (F := Ideal) (x0 (ix2 n (0 : Fin 2))) (x0 (ix2 n (1 : Fin 2))) (x1 (ix2 n (0 : Fin 2))) (x1 (ix2 n (1 : Fin 2))) (x2 ix0) := by
  simp only [val_main_v60_apply, val_main_v59_apply, val_main_v58_apply, val_main_v57_apply, val_main_call5_v1_apply,
    val_main_call5_v0_apply, val_main_cst_17_apply, val_main_v56_apply, val_main_v55_apply, val_main_cst_16_apply,
    val_main_v54_apply, val_main_v53_apply, val_main_v52_apply, val_main_call4_v1_apply, val_main_call4_v0_apply,
    val_main_cst_15_apply, val_main_v51_apply, val_main_v50_apply, val_main_cst_14_apply, val_main_v49_apply,
    val_main_call3_v1_apply, val_main_call3_v0_apply, val_main_cst_13_apply, val_main_v48_apply, val_main_v47_apply,
    val_main_cst_12_apply, val_main_v46_apply, val_main_v45_apply, val_main_v44_apply, val_main_call2_v1_apply,
    val_main_call2_v0_apply, val_main_cst_11_apply, val_main_v43_apply, val_main_v42_apply, val_main_cst_10_apply,
    val_main_v41_apply, val_main_v40_apply, val_main_v39_apply, val_main_cst_9_apply, val_main_v38_apply, val_main_v37_apply,
    val_main_v36_apply, val_main_v35_apply, val_main_call1_v1_apply, val_main_call1_v0_apply, val_main_cst_8_apply,
    val_main_cst_7_apply, flat_at, quadB_at, quadC_at, safeA_at, root_at, upward_at, hostNeg_eq]
  rfl

theorem hits_at (k : Fin 2) : val_main_v64 (F := Ideal) x0 x1 x2 (ix2 n k)
    = collide (F := Ideal) (x0 (ix2 n k)) (x1 (ix2 n k)) (x0 (ix2 n (0 : Fin 2))) (x0 (ix2 n (1 : Fin 2)))
        (x1 (ix2 n (0 : Fin 2))) (x1 (ix2 n (1 : Fin 2))) (x2 ix0) := by
  have e : idx_main_v61 (idx_main_v62 (ix2 n k)) = ix1 n := funext fun a => Fin.ext (by match a with | ⟨0, _⟩ => rfl)
  rw [val_main_v64_apply, val_main_v63_apply, val_main_v62_apply, val_main_v61_apply, e, hit_at]
  rfl

theorem hitY_at : val_main_v66 (F := Ideal) x0 x1 x2 (ix1 n)
    = hitY (F := Ideal) (x0 (ix2 n (0 : Fin 2))) (x0 (ix2 n (1 : Fin 2))) (x1 (ix2 n (0 : Fin 2))) (x1 (ix2 n (1 : Fin 2))) (x2 ix0) := by
  have e : idx_main_v65 (idx_main_v66 (ix1 n)) = ix2 n (1 : Fin 2) :=
    funext fun a => Fin.ext (by match a with | ⟨0, _⟩ => exact Nat.div_one _ | ⟨1, _⟩ => rfl)
  rw [val_main_v66_apply, val_main_v65_apply, e, hits_at]
  rfl

/-- The reference's first result is the hit points' array. -/
theorem ref_hits : val_main_v64 (F := Ideal) x0 x1 x2 = Cert.Rays.hits (F := Ideal) x0 x1 x2 := by
  funext i
  obtain ⟨n, k, rfl⟩ : ∃ (n : Fin 4194304) (k : Fin 2), i = ix2 n k := ⟨i 0, i 1, eq_ix2 i⟩
  rw [hits_at]
  rfl

end Cert.ReferenceIdeal.RayRef

end
-- ==== Proof.RefBent.lean ====
/-
  The reference, ray by ray, from the hit point to the refracted direction.

  The reference stacks the unnormalised normal (1, −2a·cy) as the two columns of an [N, 2] array, takes its row norms
  and the directions' row norms as host sums of squares over the two columns started from the zero word, and the two
  inner products (normal · direction, turned normal · unit direction) as such sums too. On the extended reals a sum
  over two columns started from zero is the plain sum of the two terms (0 + a = a for every a, the infinities
  included), so at ray n each stage is again the ray function's stage; column k of a per-ray array is read at (n, k).
-/
import proofs.«123952_j71193377899036_1_alg».proof.Proof.RefHit

noncomputable section

namespace Cert.ReferenceIdeal.RayRef

open Cert.ReferenceIdeal Cert.ReferenceIdeal.Gen Cert.ReferenceIdeal.ReadP Idealize.ShloMosaic Idealize.ShloMosaic.ValueIdx Cert.Ray

/-- On the extended reals a sum started from the zero word is the sum. -/
theorem zero_word_add (a : Ideal .f32) : (FloatOps.ofBits (F := Ideal) .f32 0x00000000#32 : Ideal .f32) + a = a := by
  show Ideal.ofBits .f32 0x00000000#32 + a = a
  rw [Ideal.ofBits_zero_f32, zero_add]

variable (x0 x1 : (⟨S4194304x2, .f32⟩ : BufTy).Contents (Elt Ideal)) (x2 : (⟨S_, .f32⟩ : BufTy).Contents (Elt Ideal))
variable (n : Fin 4194304)

/-- The hit point's y of ray n. -/
def cyOf : Ideal .f32 :=
  hitY (F := Ideal) (x0 (ix2 n (0 : Fin 2))) (x0 (ix2 n (1 : Fin 2))) (x1 (ix2 n (0 : Fin 2))) (x1 (ix2 n (1 : Fin 2))) (x2 ix0)

/-- normal · direction of ray n. -/
def dOf : Ideal .f32 :=
  incidence (F := Ideal) (x0 (ix2 n (0 : Fin 2))) (x0 (ix2 n (1 : Fin 2))) (x1 (ix2 n (0 : Fin 2))) (x1 (ix2 n (1 : Fin 2))) (x2 ix0)

/-! ## The normal -/

theorem slope_at : val_main_v69 (F := Ideal) x0 x1 x2 (ix1 n) = slope (F := Ideal) (cyOf x0 x1 x2 n) := by
  simp only [val_main_v69_apply, val_main_v68_apply, val_main_cst_19_apply, hitY_at]; rfl

/-- The stacked unnormalised normal: column 0 is 1, column 1 the slope. -/
theorem stack_at (k : Fin 2) : val_main_v72 (F := Ideal) x0 x1 x2 (ix2 n k)
    = if k.val = 0 then lit (F := Ideal) 0x3F800000#32 else slope (F := Ideal) (cyOf x0 x1 x2 n) := by
  have hk : k.val < 2 := k.isLt
  unfold val_main_v72
  by_cases h : k.val = 0
  · rw [if_pos h]
    refine (concatenate_pair_apply_left (t := S4194304x2) (s₁ := S4194304x1) (s₂ := S4194304x1) (1 : Fin 2) _ _ _ (ix2 n k) rfl
      (ix2 n (0 : Fin 1)) (fun b => match b with | ⟨0, _⟩ => rfl | ⟨1, _⟩ => h.symm)).trans ?_
    simp only [val_main_v70_apply, val_main_v67_apply, val_main_cst_18_apply]
  · rw [if_neg h]
    refine (concatenate_pair_apply_right (t := S4194304x2) (s₁ := S4194304x1) (s₂ := S4194304x1) (1 : Fin 2) _ _ _ (ix2 n k) rfl rfl
      (ix2 n (0 : Fin 1)) (fun b hb => match b, hb with | ⟨0, _⟩, _ => rfl | ⟨1, _⟩, hb => absurd rfl hb)
      (by show 0 + 1 = k.val; omega)).trans ?_
    have e : idx_main_v71 (ix2 n (0 : Fin 1)) = ix1 n := funext fun a => Fin.ext (by match a with | ⟨0, _⟩ => rfl)
    rw [val_main_v71_apply, e, slope_at]

theorem normLen_at : val_main_v73 (F := Ideal) x0 x1 x2 (ix2 n (0 : Fin 1)) = normLen (F := Ideal) (cyOf x0 x1 x2 n) := by
  have e : idx_main_call7_v2 (ix2 n (0 : Fin 1)) = ix1 n := funext fun a => Fin.ext (by match a with | ⟨0, _⟩ => rfl)
  have e0 : idx_main_call7_v1 (ix1 n) 0 = ix2 n (0 : Fin 2) := funext fun a => Fin.ext (by match a with | ⟨0, _⟩ => rfl | ⟨1, _⟩ => rfl)
  have e1 : idx_main_call7_v1 (ix1 n) 1 = ix2 n (1 : Fin 2) := funext fun a => Fin.ext (by match a with | ⟨0, _⟩ => rfl | ⟨1, _⟩ => rfl)
  rw [val_main_v73_apply, val_main_call7_v2_apply, e, val_main_call7_v1_apply, Fin.sum_univ_two, e0, e1,
    val_main_call7_v0_apply, val_main_call7_v0_apply, stack_at, stack_at, val_main_call7_cst_apply]
  exact congrArg Ideal.sqrt (zero_word_add _)

/-- The unit normal: column k is its coordinate k. -/
theorem normAt_at (k : Fin 2) : val_main_v75 (F := Ideal) x0 x1 x2 (ix2 n k) = normAt (F := Ideal) k.val (cyOf x0 x1 x2 n) := by
  have e : idx_main_v74 (ix2 n k) = ix2 n (0 : Fin 1) := funext fun a => Fin.ext (by match a with | ⟨0, _⟩ => rfl | ⟨1, _⟩ => rfl)
  rw [val_main_v75_apply, val_main_v74_apply, e, normLen_at, stack_at]
  unfold normAt
  by_cases h : k.val = 0
  · rw [if_pos h, if_pos h]; rfl
  · rw [if_neg h, if_neg h]; rfl

theorem incidence_at : val_main_v77 (F := Ideal) x0 x1 x2 (ix1 n) = dOf x0 x1 x2 n := by
  have e0 : idx_main_v77 (ix1 n) 0 = ix2 n (0 : Fin 2) := funext fun a => Fin.ext (by match a with | ⟨0, _⟩ => rfl | ⟨1, _⟩ => rfl)
  have e1 : idx_main_v77 (ix1 n) 1 = ix2 n (1 : Fin 2) := funext fun a => Fin.ext (by match a with | ⟨0, _⟩ => rfl | ⟨1, _⟩ => rfl)
  rw [val_main_v77_apply, Fin.sum_univ_two, e0, e1, val_main_v76_apply, val_main_v76_apply, normAt_at, normAt_at,
    val_main_cst_20_apply]
  exact zero_word_add _

/-- The normal turned against the ray: column k. -/
theorem facing_at (k : Fin 2) : val_main_v82 (F := Ideal) x0 x1 x2 (ix2 n k)
    = facing (F := Ideal) (normAt (F := Ideal) k.val (cyOf x0 x1 x2 n)) (dOf x0 x1 x2 n) := by
  have e : idx_main_call8_v0 (ix2 n k) = ix2 n (0 : Fin 1) := funext fun a => Fin.ext (by match a with | ⟨0, _⟩ => rfl | ⟨1, _⟩ => rfl)
  have e' : idx_main_v80 (ix2 n (0 : Fin 1)) = ix1 n := funext fun a => Fin.ext (by match a with | ⟨0, _⟩ => rfl)
  rw [val_main_v82_apply, val_main_call8_v0_apply, e, val_main_v80_apply, e', val_main_v79_apply, val_main_v78_apply,
    val_main_cst_21_apply, incidence_at, val_main_v81_apply, normAt_at, hostNeg_eq]
  rfl

/-! ## The unit direction and the refraction -/

theorem dirLen_at : val_main_v83 (F := Ideal) x1 (ix2 n (0 : Fin 1))
    = dirLen (F := Ideal) (x1 (ix2 n (0 : Fin 2))) (x1 (ix2 n (1 : Fin 2))) := by
  have e : idx_main_call9_v2 (ix2 n (0 : Fin 1)) = ix1 n := funext fun a => Fin.ext (by match a with | ⟨0, _⟩ => rfl)
  have e0 : idx_main_call9_v1 (ix1 n) 0 = ix2 n (0 : Fin 2) := funext fun a => Fin.ext (by match a with | ⟨0, _⟩ => rfl | ⟨1, _⟩ => rfl)
  have e1 : idx_main_call9_v1 (ix1 n) 1 = ix2 n (1 : Fin 2) := funext fun a => Fin.ext (by match a with | ⟨0, _⟩ => rfl | ⟨1, _⟩ => rfl)
  rw [val_main_v83_apply, val_main_call9_v2_apply, e, val_main_call9_v1_apply, Fin.sum_univ_two, e0, e1,
    val_main_call9_v0_apply, val_main_call9_v0_apply, val_main_call9_cst_apply]
  exact congrArg Ideal.sqrt (zero_word_add _)

theorem unit_at (k : Fin 2) : val_main_v85 (F := Ideal) x1 (ix2 n k)
    = unit (F := Ideal) (x1 (ix2 n k)) (x1 (ix2 n (0 : Fin 2))) (x1 (ix2 n (1 : Fin 2))) := by
  have e : idx_main_v84 (ix2 n k) = ix2 n (0 : Fin 1) := funext fun a => Fin.ext (by match a with | ⟨0, _⟩ => rfl | ⟨1, _⟩ => rfl)
  rw [val_main_v85_apply, val_main_v84_apply, e, dirLen_at]
  rfl

theorem cosInc_at : val_main_v88 (F := Ideal) x0 x1 x2 (ix1 n)
    = cosInc (F := Ideal) (x1 (ix2 n (0 : Fin 2))) (x1 (ix2 n (1 : Fin 2))) (normX (F := Ideal) (cyOf x0 x1 x2 n))
        (normY (F := Ideal) (cyOf x0 x1 x2 n)) (dOf x0 x1 x2 n) := by
  have e0 : idx_main_v87 (ix1 n) 0 = ix2 n (0 : Fin 2) := funext fun a => Fin.ext (by match a with | ⟨0, _⟩ => rfl | ⟨1, _⟩ => rfl)
  have e1 : idx_main_v87 (ix1 n) 1 = ix2 n (1 : Fin 2) := funext fun a => Fin.ext (by match a with | ⟨0, _⟩ => rfl | ⟨1, _⟩ => rfl)
  rw [val_main_v88_apply, val_main_v87_apply, Fin.sum_univ_two, e0, e1, val_main_v86_apply, val_main_v86_apply,
    facing_at, facing_at, unit_at, unit_at, val_main_cst_22_apply, hostNeg_eq]
  exact congrArg (FloatOps.subf (lit (F := Ideal) 0x00000000#32)) (zero_word_add _)

theorem bend_at : val_main_v103 (F := Ideal) x0 x1 x2 (ix1 n)
    = bend (F := Ideal) (x1 (ix2 n (0 : Fin 2))) (x1 (ix2 n (1 : Fin 2))) (normX (F := Ideal) (cyOf x0 x1 x2 n))
        (normY (F := Ideal) (cyOf x0 x1 x2 n)) (dOf x0 x1 x2 n) := by
  rw [val_main_v103_apply, val_main_v102_apply, val_main_v101_apply, val_main_v100_apply, val_main_cst_28_apply,
    val_main_v97_apply, val_main_v96_apply, val_main_cst_26_apply, val_main_v95_apply, val_main_v94_apply,
    val_main_cst_25_apply, val_main_v93_apply, val_main_v92_apply, val_main_cst_24_apply, val_main_v91_apply,
    val_main_v90_apply, val_main_cst_23_apply, val_main_v89_apply, cosInc_at]
  rfl

/-- The refracted directions: column k of ray n. -/
theorem bents_at (k : Fin 2) : val_main_v107 (F := Ideal) x0 x1 x2 (ix2 n k)
    = refract (F := Ideal) (x1 (ix2 n k)) (normAt (F := Ideal) k.val (cyOf x0 x1 x2 n))
        (x0 (ix2 n (0 : Fin 2))) (x0 (ix2 n (1 : Fin 2))) (x1 (ix2 n (0 : Fin 2))) (x1 (ix2 n (1 : Fin 2))) (x2 ix0) := by
  have e : idx_main_v105 (ix2 n k) = ix2 n (0 : Fin 1) := funext fun a => Fin.ext (by match a with | ⟨0, _⟩ => rfl | ⟨1, _⟩ => rfl)
  have e' : idx_main_v104 (ix2 n (0 : Fin 1)) = ix1 n := funext fun a => Fin.ext (by match a with | ⟨0, _⟩ => rfl)
  rw [val_main_v107_apply, val_main_v106_apply, val_main_v105_apply, e, val_main_v104_apply, e', bend_at, facing_at,
    val_main_v99_apply, val_main_v98_apply, val_main_cst_27_apply, unit_at]
  rfl

/-- The reference's second result is the refracted directions' array. -/
theorem ref_bents : val_main_v107 (F := Ideal) x0 x1 x2 = Cert.Rays.bents (F := Ideal) x0 x1 x2 := by
  funext i
  obtain ⟨n, k, rfl⟩ : ∃ (n : Fin 4194304) (k : Fin 2), i = ix2 n k := ⟨i 0, i 1, eq_ix2 i⟩
  rw [bents_at]
  rfl

end Cert.ReferenceIdeal.RayRef

end
-- ==== Proof.lean ====
/-
  Ray–surface collision and refraction: the kernel program against its reference, on the extended reals.

  Both programs compute, for each of N = 4194304 rays (an origin and a direction in the plane) and one surface position,
  the point where the ray meets the parabola x = a·y² + p and the direction into which Snell's law refracts it there.
  The kernel program transposes the [N, 2] arguments to [2, N], runs one elementwise kernel over 128 column blocks and
  transposes its two outputs back; the reference computes the same quantities on [N] and [N, 2] arrays with column
  slices, a column concatenation, broadcasts along the columns and sums over the two columns. Ray by ray the two apply
  the same scalar operations in the same order (`Cert.Ray`); the differences are of layout only, and two spellings that
  agree on every extended real: a sum over two columns started from zero against the plain sum of two terms, and −c
  against 0 − c. No finiteness of the inputs is used.

  The modules: `Ray` (one ray) and `Rays` (all of them: the two result arrays as functions of the arguments);
  `KernelRay` → `KernelBlock` → `KernelArray` → `KernelRun` (the kernel body's stores at a lane, an output block as one
  function of the input blocks, an output array after the region, the program's run through the host transposes);
  `RefHit` → `RefBent` (the reference's stages at a ray's index) over the reference's operations read one at a time;
  `RefRun` (the reference's run, chained over nine stretches of its line of operations; `LibJoin`: a join of two arrays
  depends on its pieces only through their contents).
  The claims: the three frames are the programs' runs with the results dropped; the idealization rewrote nothing;
  and the two idealized programs end at `Rays.hits` and `Rays.bents` of arguments that agree.
-/
import proofs.«123952_j71193377899036_1_alg».proof.Defs
import proofs.«123952_j71193377899036_1_alg».proof.Proof.Gen.Kernel
import proofs.«123952_j71193377899036_1_alg».proof.Proof.Gen.Kernel.Frame
import proofs.«123952_j71193377899036_1_alg».proof.Proof.Gen.KernelIdeal
import proofs.«123952_j71193377899036_1_alg».proof.Proof.Gen.KernelIdeal.Frame
import proofs.«123952_j71193377899036_1_alg».proof.Proof.Gen.ReferenceIdeal
import proofs.«123952_j71193377899036_1_alg».proof.Proof.Gen.Pre_finite_inputs
import proofs.«123952_j71193377899036_1_alg».proof.Proof.KernelRun
import proofs.«123952_j71193377899036_1_alg».proof.Proof.RefRun
import proofs.«123952_j71193377899036_1_alg».proof.Proof.RefBent

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the results dropped. -/
theorem frame_referenceIdeal : Cert.frame_ReferenceIdeal := fun m ρ _ =>
  (θ_run Cert.ReferenceIdeal.defs _ _).mono (fun _ h c => (h c).2.2) (Cert.ReferenceIdeal.RunChain.run (F := Ideal) m ρ)

/-- The ideal pass rewrote no operation of the kernel. -/
theorem preserves : Cert.preserves_Kernel_KernelIdeal := trivial

/-- From memories that agree on the arguments both idealized programs end with the hit points' array, the refracted
    directions' array and the surface position of the arguments. -/
theorem algebraic : Cert.algebraic_KernelIdeal_ReferenceIdeal := by
  intro m ρ m' ρ' _ hagree
  refine ⟨fun c => Cert.Rays.hits (F := Ideal) (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    fun c => Cert.Rays.bents (F := Ideal) (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    fun c => m ((c.tc : Thread Cert.KernelIdeal.nD Cert.KernelIdeal.τ).loc Cert.KernelIdeal.main_arg2), ?_, ?_⟩
  · exact (θ_run Cert.KernelIdeal.defs _ _).mono
      (fun _ h c => ⟨(h c).1, (h c).2.1, (h c).2.2.2.2, (h c).2.2.1, (h c).2.2.2.1, (h c).2.2.2.2⟩)
      (Cert.KernelIdeal.RayRun.run (F := Ideal) m ρ)
  · refine (θ_run Cert.ReferenceIdeal.defs _ _).mono (fun _ h c => ⟨(h c).1.trans ?_, (h c).2.1.trans ?_,
      (h c).2.2.2.2.trans (hagree c).2.2, (h c).2.2.1, (h c).2.2.2.1, (h c).2.2.2.2⟩)
      (Cert.ReferenceIdeal.RunChain.run (F := Ideal) m' ρ')
    · rw [(hagree c).1, (hagree c).2.1, (hagree c).2.2]
      exact Cert.ReferenceIdeal.RayRef.ref_hits _ _ _
    · rw [(hagree c).1, (hagree c).2.1, (hagree c).2.2]
      exact Cert.ReferenceIdeal.RayRef.ref_bents _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
